-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1x32 : Shape := ⟨3, ![20000, 1, 32]⟩
abbrev S20000x3x32 : Shape := ⟨3, ![20000, 3, 32]⟩
abbrev S20000x5x32 : Shape := ⟨3, ![20000, 5, 32]⟩
abbrev S20000x7x32 : Shape := ⟨3, ![20000, 7, 32]⟩
abbrev S_ : Shape := ⟨0, ![]⟩

class Facts : Prop where
  bcast_S_S20000x1x32 : S_.BroadcastsInDim S20000x1x32 (![] : Fin 0 → Fin S20000x1x32.rank)
  reducesTo_S20000x1x32_S_d0_1_2 : S20000x1x32.ReducesTo [0, 1, 2] S_
  h_S_ : 0 < S_.numel
  bcast_S_S20000x3x32 : S_.BroadcastsInDim S20000x3x32 (![] : Fin 0 → Fin S20000x3x32.rank)
  reducesTo_S20000x3x32_S_d0_1_2 : S20000x3x32.ReducesTo [0, 1, 2] S_
  bcast_S_S20000x5x32 : S_.BroadcastsInDim S20000x5x32 (![] : Fin 0 → Fin S20000x5x32.rank)
  reducesTo_S20000x5x32_S_d0_1_2 : S20000x5x32.ReducesTo [0, 1, 2] S_
  bcast_S_S20000x7x32 : S_.BroadcastsInDim S20000x7x32 (![] : Fin 0 → Fin S20000x7x32.rank)
  reducesTo_S20000x7x32_S_d0_1_2 : S20000x7x32.ReducesTo [0, 1, 2] S_

variable [Facts]

def fn_part1 {F : FTy → Type} [FloatOps F] (main_v13 : IVec S_ 1) (main_v16 : IVec S20000x7x32 1) : IVec S_ 1 :=
  let main_c_5 : IVec S_ 1 := constantI S_ 1 1#1
  let main_v17 : IVec S_ 1 := (fun x v => Host.reduce IntOp.andi x v reducesTo_S20000x7x32_S_d0_1_2 h_S_) main_v16 main_c_5
  let main_v18 : IVec S_ 1 := andi main_v13 main_v17
  main_v18

def fn {F : FTy → Type} [FloatOps F] (main_arg0 : FVec F S20000x1x32 .f32) (main_arg1 : FVec F S20000x3x32 .f32) (main_arg2 : FVec F S20000x5x32 .f32) (main_arg3 : FVec F S20000x7x32 .f32) : IVec S_ 1 :=
  let main_v0 : FVec F S20000x1x32 .f32 := Host.absf main_arg0
  let main_cst : FVec F S_ .f32 := constant S_ .f32 0x7F800000#32
  let main_v1 : FVec F S20000x1x32 .f32 := broadcastInDim S20000x1x32 ![] bcast_S_S20000x1x32 main_cst
  let main_v2 : IVec S20000x1x32 1 := cmpf .olt main_v0 main_v1
  let main_c : IVec S_ 1 := constantI S_ 1 1#1
  let main_v3 : IVec S_ 1 := (fun x v => Host.reduce IntOp.andi x v reducesTo_S20000x1x32_S_d0_1_2 h_S_) main_v2 main_c
  let main_v4 : FVec F S20000x3x32 .f32 := Host.absf main_arg1
  let main_cst_0 : FVec F S_ .f32 := constant S_ .f32 0x7F800000#32
  let main_v5 : FVec F S20000x3x32 .f32 := broadcastInDim S20000x3x32 ![] bcast_S_S20000x3x32 main_cst_0
  let main_v6 : IVec S20000x3x32 1 := cmpf .olt main_v4 main_v5
  let main_c_1 : IVec S_ 1 := constantI S_ 1 1#1
  let main_v7 : IVec S_ 1 := (fun x v => Host.reduce IntOp.andi x v reducesTo_S20000x3x32_S_d0_1_2 h_S_) main_v6 main_c_1
  let main_v8 : IVec S_ 1 := andi main_v3 main_v7
  let main_v9 : FVec F S20000x5x32 .f32 := Host.absf main_arg2
  let main_cst_2 : FVec F S_ .f32 := constant S_ .f32 0x7F800000#32
  let main_v10 : FVec F S20000x5x32 .f32 := broadcastInDim S20000x5x32 ![] bcast_S_S20000x5x32 main_cst_2
  let main_v11 : IVec S20000x5x32 1 := cmpf .olt main_v9 main_v10
  let main_c_3 : IVec S_ 1 := constantI S_ 1 1#1
  let main_v12 : IVec S_ 1 := (fun x v => Host.reduce IntOp.andi x v reducesTo_S20000x5x32_S_d0_1_2 h_S_) main_v11 main_c_3
  let main_v13 : IVec S_ 1 := andi main_v8 main_v12
  let main_v14 : FVec F S20000x7x32 .f32 := Host.absf main_arg3
  let main_cst_4 : FVec F S_ .f32 := constant S_ .f32 0x7F800000#32
  let main_v15 : FVec F S20000x7x32 .f32 := broadcastInDim S20000x7x32 ![] bcast_S_S20000x7x32 main_cst_4
  let main_v16 : IVec S20000x7x32 1 := cmpf .olt main_v14 main_v15
  fn_part1 (F := F) main_v13 main_v16
-- ==== Kernel.lean ====
abbrev S20000x1x32 : Shape := ⟨3, ![20000, 1, 32]⟩
abbrev S20000x3x32 : Shape := ⟨3, ![20000, 3, 32]⟩
abbrev S20000x5x32 : Shape := ⟨3, ![20000, 5, 32]⟩
abbrev S20000x7x32 : Shape := ⟨3, ![20000, 7, 32]⟩
abbrev S32x20000 : Shape := ⟨2, ![32, 20000]⟩
abbrev S20000x32 : Shape := ⟨2, ![20000, 32]⟩
abbrev S20000x96 : Shape := ⟨2, ![20000, 96]⟩
abbrev S20000x160 : Shape := ⟨2, ![20000, 160]⟩
abbrev S20000x224 : Shape := ⟨2, ![20000, 224]⟩
abbrev S4128x20000 : Shape := ⟨2, ![4128, 20000]⟩
abbrev S32x512 : Shape := ⟨2, ![32, 512]⟩
abbrev S512x32 : Shape := ⟨2, ![512, 32]⟩
abbrev S512x96 : Shape := ⟨2, ![512, 96]⟩
abbrev S512x160 : Shape := ⟨2, ![512, 160]⟩
abbrev S512x224 : Shape := ⟨2, ![512, 224]⟩
abbrev S4128x512 : Shape := ⟨2, ![4128, 512]⟩
abbrev S32x32x512 : Shape := ⟨3, ![32, 32, 512]⟩
abbrev S32x1x512 : Shape := ⟨3, ![32, 1, 512]⟩
abbrev S1x32x512 : Shape := ⟨3, ![1, 32, 512]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S20000x1x32, .f32⟩
  | .hbm, ⟨1, _⟩ => ⟨S20000x3x32, .f32⟩
  | .hbm, ⟨2, _⟩ => ⟨S20000x5x32, .f32⟩
  | .hbm, ⟨3, _⟩ => ⟨S20000x7x32, .f32⟩
  | .hbm, ⟨4, _⟩ => ⟨S32x20000, .f32⟩
  | .hbm, ⟨5, _⟩ => ⟨S20000x32, .f32⟩
  | .hbm, ⟨6, _⟩ => ⟨S20000x96, .f32⟩
  | .hbm, ⟨7, _⟩ => ⟨S20000x160, .f32⟩
  | .hbm, ⟨8, _⟩ => ⟨S20000x224, .f32⟩
  | .hbm, ⟨9, _⟩ => ⟨S4128x20000, .f32⟩
  | .local _ .vmem, ⟨0, _⟩ => ⟨S32x512, .f32⟩
  | .local _ .vmem, ⟨1, _⟩ => ⟨S32x512, .f32⟩
  | .local _ .vmem, ⟨2, _⟩ => ⟨S512x32, .f32⟩
  | .local _ .vmem, ⟨3, _⟩ => ⟨S512x32, .f32⟩
  | .local _ .vmem, ⟨4, _⟩ => ⟨S512x96, .f32⟩
  | .local _ .vmem, ⟨5, _⟩ => ⟨S512x96, .f32⟩
  | .local _ .vmem, ⟨6, _⟩ => ⟨S512x160, .f32⟩
  | .local _ .vmem, ⟨7, _⟩ => ⟨S512x160, .f32⟩
  | .local _ .vmem, ⟨8, _⟩ => ⟨S512x224, .f32⟩
  | .local _ .vmem, ⟨9, _⟩ => ⟨S512x224, .f32⟩
  | .local _ .vmem, ⟨10, _⟩ => ⟨S4128x512, .f32⟩
  | .local _ .vmem, ⟨11, _⟩ => ⟨S4128x512, .f32⟩
  | _, _ => ⟨S20000x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S20000x1x32_S32x20000 : S20000x1x32.ShapeCasts S32x20000
  shapeCasts_S20000x1x32_S20000x32 : S20000x1x32.ShapeCasts S20000x32
  shapeCasts_S20000x3x32_S20000x96 : S20000x3x32.ShapeCasts S20000x96
  shapeCasts_S20000x5x32_S20000x160 : S20000x5x32.ShapeCasts S20000x160
  shapeCasts_S20000x7x32_S20000x224 : S20000x7x32.ShapeCasts S20000x224
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S4128x512_S32x512_0_0 : ∀ a, (![0, 0] : Fin 2 → Nat) a + S32x512.size a ≤ S4128x512.size a
  inb_S512x32_S512x32_0_0 : ∀ a, (![0, 0] : Fin 2 → Nat) a + S512x32.size a ≤ S512x32.size a
  h_S512x32 : 0 < S512x32.numel
  shapeCasts_S512x32_S512x32 : S512x32.ShapeCasts S512x32
  transposes_S512x32_p1_0_S32x512 : S512x32.Transposes [1, 0] S32x512
  shapeCasts_S32x512_S32x1x512 : S32x512.ShapeCasts S32x1x512
  shapeCasts_S32x512_S1x32x512 : S32x512.ShapeCasts S1x32x512
  broadcasts_S32x1x512_S32x32x512 : S32x1x512.Broadcasts S32x32x512
  broadcasts_S1x32x512_S32x32x512 : S1x32x512.Broadcasts S32x32x512
  shapeCasts_S32x32x512_S1024x512 : S32x32x512.ShapeCasts S1024x512
  inb_S4128x512_S1024x512_32_0 : ∀ a, (![32, 0] : Fin 2 → Nat) a + S1024x512.size a ≤ S4128x512.size a
  h_S1024x512 : 0 < S1024x512.numel
  inb_S512x96_S512x96_0_0 : ∀ a, (![0, 0] : Fin 2 → Nat) a + S512x96.size a ≤ S512x96.size a
  h_S512x96 : 0 < S512x96.numel
  shapeCasts_S512x96_S512x96 : S512x96.ShapeCasts S512x96
  slices_S512x96_o0_0_S512x32 : S512x96.Slices ![0, 0] S512x32
  slices_S512x96_o0_32_S512x32 : S512x96.Slices ![0, 32] S512x32
  slices_S512x96_o0_64_S512x32 : S512x96.Slices ![0, 64] S512x32
  inb_S4128x512_S1024x512_1056_0 : ∀ a, (![1056, 0] : Fin 2 → Nat) a + S1024x512.size a ≤ S4128x512.size a
  inb_S512x160_S512x160_0_0 : ∀ a, (![0, 0] : Fin 2 → Nat) a + S512x160.size a ≤ S512x160.size a
  h_S512x160 : 0 < S512x160.numel
  shapeCasts_S512x160_S512x160 : S512x160.ShapeCasts S512x160
  slices_S512x160_o0_0_S512x32 : S512x160.Slices ![0, 0] S512x32
  slices_S512x160_o0_32_S512x32 : S512x160.Slices ![0, 32] S512x32
  slices_S512x160_o0_64_S512x32 : S512x160.Slices ![0, 64] S512x32
  slices_S512x160_o0_96_S512x32 : S512x160.Slices ![0, 96] S512x32
  slices_S512x160_o0_128_S512x32 : S512x160.Slices ![0, 128] S512x32
  inb_S4128x512_S1024x512_2080_0 : ∀ a, (![2080, 0] : Fin 2 → Nat) a + S1024x512.size a ≤ S4128x512.size a
  inb_S512x224_S512x224_0_0 : ∀ a, (![0, 0] : Fin 2 → Nat) a + S512x224.size a ≤ S512x224.size a
  h_S512x224 : 0 < S512x224.numel
  shapeCasts_S512x224_S512x224 : S512x224.ShapeCasts S512x224
  slices_S512x224_o0_0_S512x32 : S512x224.Slices ![0, 0] S512x32
  slices_S512x224_o0_32_S512x32 : S512x224.Slices ![0, 32] S512x32
  slices_S512x224_o0_64_S512x32 : S512x224.Slices ![0, 64] S512x32
  slices_S512x224_o0_96_S512x32 : S512x224.Slices ![0, 96] S512x32
  slices_S512x224_o0_128_S512x32 : S512x224.Slices ![0, 128] S512x32
  slices_S512x224_o0_160_S512x32 : S512x224.Slices ![0, 160] S512x32
  slices_S512x224_o0_192_S512x32 : S512x224.Slices ![0, 192] S512x32
  inb_S4128x512_S1024x512_3104_0 : ∀ a, (![3104, 0] : Fin 2 → Nat) a + S1024x512.size a ≤ S4128x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x512.size a < S32x20000.size a
  hwx0_0 : ∀ i : grid0.Coords, EltTy.bits .f32 = 32 ∨ (Rect.unit (s := S32x20000) (fun a => cc0_transform_0 i a * S32x512.size a) (fun a => (Pipeline.Clip.of (cc0_transform_0 i a) (S32x512.size a) (S32x20000.size a)).extent (S32x512.size a)) fun a => Pipeline.Clip.inb (Pipeline.Clip.ok_of (hstart0_0 i a))).WholeWords (EltTy.packing .f32)
  hwxs0_0 : ∀ i : grid0.Coords, EltTy.bits .f32 = 32 ∨ (Rect.unit (s := S32x512) (fun _ => 0) (fun a => (Pipeline.Clip.of (cc0_transform_0 i a) (S32x512.size a) (S32x20000.size a)).extent (S32x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x32.size a < S20000x32.size a
  hwx0_1 : ∀ i : grid0.Coords, EltTy.bits .f32 = 32 ∨ (Rect.unit (s := S20000x32) (fun a => cc0_transform_1 i a * S512x32.size a) (fun a => (Pipeline.Clip.of (cc0_transform_1 i a) (S512x32.size a) (S20000x32.size a)).extent (S512x32.size a)) fun a => Pipeline.Clip.inb (Pipeline.Clip.ok_of (hstart0_1 i a))).WholeWords (EltTy.packing .f32)
  hwxs0_1 : ∀ i : grid0.Coords, EltTy.bits .f32 = 32 ∨ (Rect.unit (s := S512x32) (fun _ => 0) (fun a => (Pipeline.Clip.of (cc0_transform_1 i a) (S512x32.size a) (S20000x32.size a)).extent (S512x32.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x96.size a < S20000x96.size a
  hwx0_2 : ∀ i : grid0.Coords, EltTy.bits .f32 = 32 ∨ (Rect.unit (s := S20000x96) (fun a => cc0_transform_2 i a * S512x96.size a) (fun a => (Pipeline.Clip.of (cc0_transform_2 i a) (S512x96.size a) (S20000x96.size a)).extent (S512x96.size a)) fun a => Pipeline.Clip.inb (Pipeline.Clip.ok_of (hstart0_2 i a))).WholeWords (EltTy.packing .f32)
  hwxs0_2 : ∀ i : grid0.Coords, EltTy.bits .f32 = 32 ∨ (Rect.unit (s := S512x96) (fun _ => 0) (fun a => (Pipeline.Clip.of (cc0_transform_2 i a) (S512x96.size a) (S20000x96.size a)).extent (S512x96.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x160.size a < S20000x160.size a
  hwx0_3 : ∀ i : grid0.Coords, EltTy.bits .f32 = 32 ∨ (Rect.unit (s := S20000x160) (fun a => cc0_transform_3 i a * S512x160.size a) (fun a => (Pipeline.Clip.of (cc0_transform_3 i a) (S512x160.size a) (S20000x160.size a)).extent (S512x160.size a)) fun a => Pipeline.Clip.inb (Pipeline.Clip.ok_of (hstart0_3 i a))).WholeWords (EltTy.packing .f32)
  hwxs0_3 : ∀ i : grid0.Coords, EltTy.bits .f32 = 32 ∨ (Rect.unit (s := S512x160) (fun _ => 0) (fun a => (Pipeline.Clip.of (cc0_transform_3 i a) (S512x160.size a) (S20000x160.size a)).extent (S512x160.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x224.size a < S20000x224.size a
  hwx0_4 : ∀ i : grid0.Coords, EltTy.bits .f32 = 32 ∨ (Rect.unit (s := S20000x224) (fun a => cc0_transform_4 i a * S512x224.size a) (fun a => (Pipeline.Clip.of (cc0_transform_4 i a) (S512x224.size a) (S20000x224.size a)).extent (S512x224.size a)) fun a => Pipeline.Clip.inb (Pipeline.Clip.ok_of (hstart0_4 i a))).WholeWords (EltTy.packing .f32)
  hwxs0_4 : ∀ i : grid0.Coords, EltTy.bits .f32 = 32 ∨ (Rect.unit (s := S512x224) (fun _ => 0) (fun a => (Pipeline.Clip.of (cc0_transform_4 i a) (S512x224.size a) (S20000x224.size a)).extent (S512x224.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S4128x512.size a < S4128x20000.size a
  hwx0_5 : ∀ i : grid0.Coords, EltTy.bits .f32 = 32 ∨ (Rect.unit (s := S4128x20000) (fun a => cc0_transform_5 i a * S4128x512.size a) (fun a => (Pipeline.Clip.of (cc0_transform_5 i a) (S4128x512.size a) (S4128x20000.size a)).extent (S4128x512.size a)) fun a => Pipeline.Clip.inb (Pipeline.Clip.ok_of (hstart0_5 i a))).WholeWords (EltTy.packing .f32)
  hwxs0_5 : ∀ i : grid0.Coords, EltTy.bits .f32 = 32 ∨ (Rect.unit (s := S4128x512) (fun _ => 0) (fun a => (Pipeline.Clip.of (cc0_transform_5 i a) (S4128x512.size a) (S4128x20000.size a)).extent (S4128x512.size a)) fun a => (Nat.zero_add _).trans_le (Pipeline.Clip.extent_le (Pipeline.Clip.ok_of (hstart0_5 i a)))).WholeWords (EltTy.packing .f32)

variable [Facts₀]

abbrev win0_0 : Pipeline.Window sig grid0 :=
  Pipeline.Window.ofSpecClip (Memref.whole main_v0) S32x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S512x32.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S512x96.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v3) S512x160.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v4) S512x224.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v5) S4128x512.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S20000x1x32 : Shape := ⟨3, ![20000, 1, 32]⟩
abbrev S20000x3x32 : Shape := ⟨3, ![20000, 3, 32]⟩
abbrev S20000x5x32 : Shape := ⟨3, ![20000, 5, 32]⟩
abbrev S20000x7x32 : Shape := ⟨3, ![20000, 7, 32]⟩
abbrev S32x20000 : Shape := ⟨2, ![32, 20000]⟩
abbrev S20000x32x32 : Shape := ⟨3, ![20000, 32, 32]⟩
abbrev S32x32x20000 : Shape := ⟨3, ![32, 32, 20000]⟩
abbrev S1024x20000 : Shape := ⟨2, ![1024, 20000]⟩
abbrev S4128x20000 : Shape := ⟨2, ![4128, 20000]⟩

abbrev nBuf : Space → Nat
  | .hbm => 18
  | .vmem => 0
  | .smem => 0
  | _ => 0

abbrev bufTy : (tb : Table) → Fin (tcTables nBuf tb) → BufTy
  | .hbm, ⟨0, _⟩ => ⟨S20000x1x32, .f32⟩
  | .hbm, ⟨1, _⟩ => ⟨S20000x3x32, .f32⟩
  | .hbm, ⟨2, _⟩ => ⟨S20000x5x32, .f32⟩
  | .hbm, ⟨3, _⟩ => ⟨S20000x7x32, .f32⟩
  | .hbm, ⟨4, _⟩ => ⟨S32x20000, .f32⟩
  | .hbm, ⟨5, _⟩ => ⟨S20000x32x32, .f32⟩
  | .hbm, ⟨6, _⟩ => ⟨S32x32x20000, .f32⟩
  | .hbm, ⟨7, _⟩ => ⟨S1024x20000, .f32⟩
  | .hbm, ⟨8, _⟩ => ⟨S20000x32x32, .f32⟩
  | .hbm, ⟨9, _⟩ => ⟨S32x32x20000, .f32⟩
  | .hbm, ⟨10, _⟩ => ⟨S1024x20000, .f32⟩
  | .hbm, ⟨11, _⟩ => ⟨S20000x32x32, .f32⟩
  | .hbm, ⟨12, _⟩ => ⟨S32x32x20000, .f32⟩
  | .hbm, ⟨13, _⟩ => ⟨S1024x20000, .f32⟩
  | .hbm, ⟨14, _⟩ => ⟨S20000x32x32, .f32⟩
  | .hbm, ⟨15, _⟩ => ⟨S32x32x20000, .f32⟩
  | .hbm, ⟨16, _⟩ => ⟨S1024x20000, .f32⟩
  | .hbm, ⟨17, _⟩ => ⟨S4128x20000, .f32⟩
  | _, _ => ⟨S20000x1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  shapeCasts_S20000x1x32_S32x20000 : S20000x1x32.ShapeCasts S32x20000
  transposes_S20000x32x32_S32x32x20000_2_1_0 : S20000x32x32.Transposes [2, 1, 0] S32x32x20000
  shapeCasts_S32x32x20000_S1024x20000 : S32x32x20000.ShapeCasts S1024x20000
  concatenates_S32x20000_S1024x20000_S1024x20000_S1024x20000_S1024x20000_S4128x20000_d0 : Shape.Concatenates [S32x20000, S1024x20000, S1024x20000, S1024x20000, S1024x20000] S4128x20000 0
  dot_S20000x1x32_S20000x1x32_S20000x32x32_1_1_2_2_0_0_wf : DotDims.WF S20000x1x32 S20000x1x32 S20000x32x32 [1] [1] [2] [2] [0] [0]
  dot_S20000x3x32_S20000x3x32_S20000x32x32_1_1_2_2_0_0_wf : DotDims.WF S20000x3x32 S20000x3x32 S20000x32x32 [1] [1] [2] [2] [0] [0]
  dot_S20000x5x32_S20000x5x32_S20000x32x32_1_1_2_2_0_0_wf : DotDims.WF S20000x5x32 S20000x5x32 S20000x32x32 [1] [1] [2] [2] [0] [0]
  dot_S20000x7x32_S20000x7x32_S20000x32x32_1_1_2_2_0_0_wf : DotDims.WF S20000x7x32 S20000x7x32 S20000x32x32 [1] [1] [2] [2] [0] [0]

variable [Facts₀]

def dot_S20000x1x32_S20000x1x32_S20000x32x32_1_1_2_2_0_0 : DotDims S20000x1x32 S20000x1x32 S20000x32x32 where
  lhsContracting := [1]
  rhsContracting := [1]
  lhsNonContracting := [2]
  rhsNonContracting := [2]
  lhsBatch := [0]
  rhsBatch := [0]
  wf := dot_S20000x1x32_S20000x1x32_S20000x32x32_1_1_2_2_0_0_wf
def dot_S20000x3x32_S20000x3x32_S20000x32x32_1_1_2_2_0_0 : DotDims S20000x3x32 S20000x3x32 S20000x32x32 where
  lhsContracting := [1]
  rhsContracting := [1]
  lhsNonContracting := [2]
  rhsNonContracting := [2]
  lhsBatch := [0]
  rhsBatch := [0]
  wf := dot_S20000x3x32_S20000x3x32_S20000x32x32_1_1_2_2_0_0_wf
def dot_S20000x5x32_S20000x5x32_S20000x32x32_1_1_2_2_0_0 : DotDims S20000x5x32 S20000x5x32 S20000x32x32 where
  lhsContracting := [1]
  rhsContracting := [1]
  lhsNonContracting := [2]
  rhsNonContracting := [2]
  lhsBatch := [0]
  rhsBatch := [0]
  wf := dot_S20000x5x32_S20000x5x32_S20000x32x32_1_1_2_2_0_0_wf
def dot_S20000x7x32_S20000x7x32_S20000x32x32_1_1_2_2_0_0 : DotDims S20000x7x32 S20000x7x32 S20000x32x32 where
  lhsContracting := [1]
  rhsContracting := [1]
  lhsNonContracting := [2]
  rhsNonContracting := [2]
  lhsBatch := [0]
  rhsBatch := [0]
  wf := dot_S20000x7x32_S20000x7x32_S20000x32x32_1_1_2_2_0_0_wf

class Facts : Prop extends Facts₀ where

variable [Facts]
-- ==== Proof.BitsBody.lean ====
/-
  The kernel body on one block of 512 atoms. It copies the 32 x 512 block of the reshaped scalar array into rows
  0..31 of the 4128 x 512 output block, and for each of the four parts (1, 3, 5, 7 angular components) stores, in
  rows 32 + 1024 l .. 32 + 1024 l + 1023, the channel-by-channel Gram matrix of every atom of the block over the
  angular components. Here: the five stored rectangles, what the output block holds after the body as a function of
  the five input blocks (the last store first), that the five rectangles tile the block, and the body's triple on
  whole staging buffers.
-/
import proofs.«124210_j19035295055889_2_alg».proof.Proof.Gen.Kernel.Frame
import proofs.«124210_j19035295055889_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each input block whole, the output block in five row bands -/

abbrev ri0 : Rect S32x512 := Rect.unit (s := S32x512) ![0, 0] S32x512.size inb_S32x512_S32x512_0_0
abbrev ri1 : Rect S512x32 := Rect.unit (s := S512x32) ![0, 0] S512x32.size inb_S512x32_S512x32_0_0
abbrev ri2 : Rect S512x96 := Rect.unit (s := S512x96) ![0, 0] S512x96.size inb_S512x96_S512x96_0_0
abbrev ri3 : Rect S512x160 := Rect.unit (s := S512x160) ![0, 0] S512x160.size inb_S512x160_S512x160_0_0
abbrev ri4 : Rect S512x224 := Rect.unit (s := S512x224) ![0, 0] S512x224.size inb_S512x224_S512x224_0_0
abbrev ro0 : Rect S4128x512 := Rect.unit (s := S4128x512) ![0, 0] S32x512.size inb_S4128x512_S32x512_0_0
abbrev ro1 : Rect S4128x512 := Rect.unit (s := S4128x512) ![32, 0] S1024x512.size inb_S4128x512_S1024x512_32_0
abbrev ro2 : Rect S4128x512 := Rect.unit (s := S4128x512) ![1056, 0] S1024x512.size inb_S4128x512_S1024x512_1056_0
abbrev ro3 : Rect S4128x512 := Rect.unit (s := S4128x512) ![2080, 0] S1024x512.size inb_S4128x512_S1024x512_2080_0
abbrev ro4 : Rect S4128x512 := Rect.unit (s := S4128x512) ![3104, 0] S1024x512.size inb_S4128x512_S1024x512_3104_0

/-- What the output block holds after the body, from the five input blocks: its five stores as pieces, the last
    store first. -/
def outBlock (x0 : Vec F S32x512 .f32) (x1 : Vec F S512x32 .f32) (x2 : Vec F S512x96 .f32) (x3 : Vec F S512x160 .f32)
    (x4 : Vec F S512x224 .f32) : Vec F S4128x512 .f32 :=
  View.canon [⟨ro4, k0_pay8 (k0_pay5 (View.ld x4 ri4)) (k0_pay6 (F := F)) (k0_pay7 (View.ld x4 ri4))⟩,
    ⟨ro3, k0_pay4 (View.ld x3 ri3)⟩, ⟨ro2, k0_pay3 (View.ld x2 ri2)⟩, ⟨ro1, k0_pay2 (View.ld x1 ri1)⟩,
    ⟨ro0, k0_pay1 (View.ld x0 ri0)⟩]

/-- The five row bands 0..31, 32..1055, 1056..2079, 2080..3103, 3104..4127, cut into bands of 32 rows, tile the block, so they cover it. -/
theorem cover (p4 p3 p2 p1 : Vec F S1024x512 .f32) (p0 : Vec F S32x512 .f32) (y : S4128x512.Idx) :
    ∃ pc ∈ ([⟨ro4, p4⟩, ⟨ro3, p3⟩, ⟨ro2, p2⟩, ⟨ro1, p1⟩, ⟨ro0, p0⟩] : List (View.Piece (Elt F) S4128x512 .f32)), y ∈ pc.1.set :=
  View.cover_of_tiledBy [⟨ro4, p4⟩, ⟨ro3, p3⟩, ⟨ro2, p2⟩, ⟨ro1, p1⟩, ⟨ro0, p0⟩] ![32, 512] (by sl_kernel_rfl) y

/-! ## The body's triple -/

set_option maxHeartbeats 4000000 in
/-- The body on whole staging buffers, the inputs' at contents `x0 … x4` and the output's at anything, ends with
    the inputs' as they were and the output's at `outBlock` of them. -/
theorem sound_kernel (c : Dev nD) (E : Set ℕ) (i : grid0.Coords)
    (arg1 : Memref sig .tc .vmem S32x512 .f32) (harg1 : arg1.IsWhole) (arg2 : Memref sig .tc .vmem S512x32 .f32) (harg2 : arg2.IsWhole)
    (arg3 : Memref sig .tc .vmem S512x96 .f32) (harg3 : arg3.IsWhole) (arg4 : Memref sig .tc .vmem S512x160 .f32) (harg4 : arg4.IsWhole)
    (arg5 : Memref sig .tc .vmem S512x224 .f32) (harg5 : arg5.IsWhole) (arg6 : Memref sig .tc .vmem S4128x512 .f32) (harg6 : arg6.IsWhole)
    (x0 : Vec F S32x512 .f32) (x1 : Vec F S512x32 .f32) (x2 : Vec F S512x96 .f32) (x3 : Vec F S512x160 .f32) (x4 : Vec F S512x224 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _ _ _ _ _)

end Cert.Kernel.Body

end
-- ==== Proof.LibGram.lean ====
/-
  A per-atom Gram matrix built on the vector unit, one outer-product term at a time.

  A block `x` of `A` atoms, each a row of `K` numbers, holds for every angular component a band of `C` channels.
  One term takes the band at column offset `off`, transposes it to channels x atoms, views it once as
  `[C, 1, A]` and once as `[1, C, A]`, broadcasts both to `[C, C, A]` and multiplies: at `(c1, c2, j)` that is
  `x (j, off + c1) * x (j, off + c2)`. The terms are added one by one onto a zero block and the `[C, C, A]` result
  is viewed as `[C * C, A]`, row `c1 * C + c2`. The lemmas read each of these steps at an index written by
  coordinates, for any element type; `gramFold` is the running sum, and at the extended reals it is the starting
  value plus the sum of the products.
-/
import Idealize.ShloMosaic.Lib.ValueLayout
import Idealize.ShloMosaic.PureOps.Ideal

noncomputable section

namespace Cert.LibGram

open Idealize.ShloMosaic Idealize.ShloMosaic.ValueIdx

variable {α : Type}

/-- A `[C, A]` array viewed `[C, 1, A]` and broadcast to `[C, C, A]` reads, at `(c1, c2, j)`, the array at `(c1, j)`. -/
theorem bcastRow_apply {C A : ℕ} (x : (⟨2, ![C, A]⟩ : Shape).Idx → α)
    (hc : (⟨2, ![C, A]⟩ : Shape).ShapeCasts ⟨3, ![C, 1, A]⟩) (hb : (⟨3, ![C, 1, A]⟩ : Shape).Broadcasts ⟨3, ![C, C, A]⟩)
    (c1 c2 : Fin C) (j : Fin A) :
    broadcastTo ⟨3, ![C, C, A]⟩ (shapeCast ⟨3, ![C, 1, A]⟩ x hc) hb (ix3 c1 c2 j) = x (ix2 c1 j) := by
  refine (broadcastTo_apply _ hb (ix3 c1 c2 j) (ix3 c1 (0 : Fin 1) j) fun ax => ?_).trans ?_
  · match ax with
    | ⟨0, _⟩ =>
      show c1.val = if C = 1 then 0 else c1.val
      split
      · have := c1.isLt; omega
      · rfl
    | ⟨1, _⟩ => rfl
    | ⟨2, _⟩ =>
      show j.val = if A = 1 then 0 else j.val
      split
      · have := j.isLt; omega
      · rfl
  · exact shapeCast_apply x hc _ _ (by
      rw [Shape.rowMajor_val_two, Shape.rowMajor_val_three]
      show c1.val * A + j.val = (c1.val * 1 + 0) * A + j.val
      rw [Nat.mul_one, Nat.add_zero])

/-- A `[C, A]` array viewed `[1, C, A]` and broadcast to `[C, C, A]` reads, at `(c1, c2, j)`, the array at `(c2, j)`. -/
theorem bcastCol_apply {C A : ℕ} (x : (⟨2, ![C, A]⟩ : Shape).Idx → α)
    (hc : (⟨2, ![C, A]⟩ : Shape).ShapeCasts ⟨3, ![1, C, A]⟩) (hb : (⟨3, ![1, C, A]⟩ : Shape).Broadcasts ⟨3, ![C, C, A]⟩)
    (c1 c2 : Fin C) (j : Fin A) :
    broadcastTo ⟨3, ![C, C, A]⟩ (shapeCast ⟨3, ![1, C, A]⟩ x hc) hb (ix3 c1 c2 j) = x (ix2 c2 j) := by
  refine (broadcastTo_apply _ hb (ix3 c1 c2 j) (ix3 (0 : Fin 1) c2 j) fun ax => ?_).trans ?_
  · match ax with
    | ⟨0, _⟩ => rfl
    | ⟨1, _⟩ =>
      show c2.val = if C = 1 then 0 else c2.val
      split
      · have := c2.isLt; omega
      · rfl
    | ⟨2, _⟩ =>
      show j.val = if A = 1 then 0 else j.val
      split
      · have := j.isLt; omega
      · rfl
  · exact shapeCast_ab_1ab_apply x hc 0 c2 j

/-- The band of `C` columns from `off` of an `[A, K]` array, transposed, reads at `(c, j)` the array at `(j, off + c)`. -/
theorem bandT_apply {A C K : ℕ} (off : ℕ) (x : (⟨2, ![A, K]⟩ : Shape).Idx → α)
    (hs : (⟨2, ![A, K]⟩ : Shape).Slices ![0, off] ⟨2, ![A, C]⟩) (ht : (⟨2, ![A, C]⟩ : Shape).Transposes [1, 0] ⟨2, ![C, A]⟩)
    (c : Fin C) (j : Fin A) (k : Fin K) (hk : k.val = off + c.val) :
    transpose ⟨2, ![C, A]⟩ [1, 0] (extractStridedSlice ⟨2, ![A, C]⟩ ![0, off] x hs) ht (ix2 c j) = x (ix2 j k) :=
  (transpose_ix2_apply _ ht c j).trans (slice2_axis1_apply off x hs j c k hk)

/-- A `[C, C, A]` array viewed `[CC, A]` reads, at row `c1 * C + c2` and column `j`, the array at `(c1, c2, j)`. -/
theorem flatRows_apply {C CC A : ℕ} (y : (⟨3, ![C, C, A]⟩ : Shape).Idx → α)
    (h : (⟨3, ![C, C, A]⟩ : Shape).ShapeCasts ⟨2, ![CC, A]⟩) (r : Fin CC) (j : Fin A) (c1 c2 : Fin C)
    (hr : r.val = c1.val * C + c2.val) :
    shapeCast ⟨2, ![CC, A]⟩ y h (ix2 r j) = y (ix3 c1 c2 j) :=
  shapeCast_apply y h _ _ (by
    rw [Shape.rowMajor_val_three, Shape.rowMajor_val_two]
    show (c1.val * C + c2.val) * A + j.val = r.val * A + j.val
    rw [hr])

section Term

variable {F : FTy → Type} [FloatOps F] {φ : FTy}

/-- One outer-product term from the band at `off`: at `(c1, c2, j)` the product of the atom's two channel values. -/
theorem term_apply {A C K : ℕ} (off : ℕ) (x : FVec F ⟨2, ![A, K]⟩ φ)
    (hs : (⟨2, ![A, K]⟩ : Shape).Slices ![0, off] ⟨2, ![A, C]⟩) (ht : (⟨2, ![A, C]⟩ : Shape).Transposes [1, 0] ⟨2, ![C, A]⟩)
    (hc1 : (⟨2, ![C, A]⟩ : Shape).ShapeCasts ⟨3, ![C, 1, A]⟩) (hc2 : (⟨2, ![C, A]⟩ : Shape).ShapeCasts ⟨3, ![1, C, A]⟩)
    (hb1 : (⟨3, ![C, 1, A]⟩ : Shape).Broadcasts ⟨3, ![C, C, A]⟩) (hb2 : (⟨3, ![1, C, A]⟩ : Shape).Broadcasts ⟨3, ![C, C, A]⟩)
    (c1 c2 : Fin C) (j : Fin A) (k1 k2 : Fin K) (hk1 : k1.val = off + c1.val) (hk2 : k2.val = off + c2.val) :
    mulf (broadcastTo ⟨3, ![C, C, A]⟩ (shapeCast ⟨3, ![C, 1, A]⟩
            (transpose ⟨2, ![C, A]⟩ [1, 0] (extractStridedSlice ⟨2, ![A, C]⟩ ![0, off] x hs) ht) hc1) hb1)
         (broadcastTo ⟨3, ![C, C, A]⟩ (shapeCast ⟨3, ![1, C, A]⟩
            (transpose ⟨2, ![C, A]⟩ [1, 0] (extractStridedSlice ⟨2, ![A, C]⟩ ![0, off] x hs) ht) hc2) hb2) (ix3 c1 c2 j)
      = FloatOps.mulf (x (ix2 j k1)) (x (ix2 j k2)) := by
  show FloatOps.mulf (broadcastTo _ _ hb1 (ix3 c1 c2 j)) (broadcastTo _ _ hb2 (ix3 c1 c2 j)) = _
  rw [bcastRow_apply, bcastCol_apply, bandT_apply off x hs ht c1 j k1 hk1, bandT_apply off x hs ht c2 j k2 hk2]

/-- The same for a block that is one band (`K = C`: one angular component, nothing cut out). -/
theorem term0_apply {A C : ℕ} (x : FVec F ⟨2, ![A, C]⟩ φ)
    (ht : (⟨2, ![A, C]⟩ : Shape).Transposes [1, 0] ⟨2, ![C, A]⟩)
    (hc1 : (⟨2, ![C, A]⟩ : Shape).ShapeCasts ⟨3, ![C, 1, A]⟩) (hc2 : (⟨2, ![C, A]⟩ : Shape).ShapeCasts ⟨3, ![1, C, A]⟩)
    (hb1 : (⟨3, ![C, 1, A]⟩ : Shape).Broadcasts ⟨3, ![C, C, A]⟩) (hb2 : (⟨3, ![1, C, A]⟩ : Shape).Broadcasts ⟨3, ![C, C, A]⟩)
    (c1 c2 : Fin C) (j : Fin A) :
    mulf (broadcastTo ⟨3, ![C, C, A]⟩ (shapeCast ⟨3, ![C, 1, A]⟩ (transpose ⟨2, ![C, A]⟩ [1, 0] x ht) hc1) hb1)
         (broadcastTo ⟨3, ![C, C, A]⟩ (shapeCast ⟨3, ![1, C, A]⟩ (transpose ⟨2, ![C, A]⟩ [1, 0] x ht) hc2) hb2) (ix3 c1 c2 j)
      = FloatOps.mulf (x (ix2 j c1)) (x (ix2 j c2)) := by
  show FloatOps.mulf (broadcastTo _ _ hb1 (ix3 c1 c2 j)) (broadcastTo _ _ hb2 (ix3 c1 c2 j)) = _
  rw [bcastRow_apply, bcastCol_apply, transpose_ix2_apply, transpose_ix2_apply]

/-- The running sum of products, in the order the terms are added: `((z + a₁ b₁) + a₂ b₂) + …`. -/
def gramFold (z : F φ) (L : List (F φ × F φ)) : F φ :=
  L.foldl (fun acc p => FloatOps.addf acc (FloatOps.mulf p.1 p.2)) z

theorem gramFold_nil (z : F φ) : gramFold z [] = z := rfl

theorem gramFold_cons (z : F φ) (p : F φ × F φ) (L : List (F φ × F φ)) :
    gramFold z (p :: L) = gramFold (FloatOps.addf z (FloatOps.mulf p.1 p.2)) L := rfl

end Term

/-- On the extended reals the running sum is the starting value plus the sum of the products, in any order. -/
theorem gramFold_ideal {φ : FTy} (z : Ideal φ) (L : List (Ideal φ × Ideal φ)) :
    gramFold (F := Ideal) z L = (z : EReal) + (L.map fun p => (p.1 * p.2 : EReal)).sum := by
  induction L generalizing z with
  | nil => simp [gramFold_nil]
  | cons p L ih =>
    rw [gramFold_cons, ih, List.map_cons, List.sum_cons, ← add_assoc]
    rfl

end Cert.LibGram

end
-- ==== Proof.Spec.lean ====
/-
  What the kernel's result holds for ONE atom, row by row. The result has 4128 rows per atom: rows 0..31 are the
  atom's column of the reshaped scalar array; then, for each part l = 0..3 with M = 2l + 1 angular components, 1024
  rows: row 32 + 1024 l + 32 c1 + c2 is the sum over the components m of (channel c1 of m) * (channel c2 of m) — the
  part's channel-by-channel Gram matrix over its angular components. An atom's part is given as its flattened row of
  32 M numbers, component m's channels at 32 m .. 32 m + 31.
-/
import proofs.«124210_j19035295055889_2_alg».proof.Proof.LibGram

noncomputable section

namespace Cert.Spec

open Idealize.ShloMosaic Cert.LibGram

variable {F : FTy → Type} [FloatOps F]

/-- Channel `c` of the band of 32 channels that starts at `o` in a flattened row of `K` numbers. -/
def band {K : ℕ} (o : ℕ) (h : o + 32 ≤ K) (c : Fin 32) : Fin K := ⟨o + c.val, by omega⟩

theorem band_val {K : ℕ} (o : ℕ) (h : o + 32 ≤ K) (c : Fin 32) : (band o h c).val = o + c.val := rfl

/-- One angular component: the product of the atom's two channel values, added onto zero. -/
def gram1 (s : Fin 32 → F .f32) (c1 c2 : Fin 32) : F .f32 :=
  gramFold (Scalar.ofBits .f32 0x00000000#32) [(s c1, s c2)]

/-- 3 angular components: the products of the atom's two channel values over the components, added one by one onto zero. -/
def gram3 (s : Fin 96 → F .f32) (c1 c2 : Fin 32) : F .f32 :=
  gramFold (Scalar.ofBits .f32 0x00000000#32)
   [(s (band 0 (by omega) c1), s (band 0 (by omega) c2)),
    (s (band 32 (by omega) c1), s (band 32 (by omega) c2)),
    (s (band 64 (by omega) c1), s (band 64 (by omega) c2))]

/-- 5 angular components: the products of the atom's two channel values over the components, added one by one onto zero. -/
def gram5 (s : Fin 160 → F .f32) (c1 c2 : Fin 32) : F .f32 :=
  gramFold (Scalar.ofBits .f32 0x00000000#32)
   [(s (band 0 (by omega) c1), s (band 0 (by omega) c2)),
    (s (band 32 (by omega) c1), s (band 32 (by omega) c2)),
    (s (band 64 (by omega) c1), s (band 64 (by omega) c2)),
    (s (band 96 (by omega) c1), s (band 96 (by omega) c2)),
    (s (band 128 (by omega) c1), s (band 128 (by omega) c2))]

/-- 7 angular components: the products of the atom's two channel values over the components, added one by one onto zero. -/
def gram7 (s : Fin 224 → F .f32) (c1 c2 : Fin 32) : F .f32 :=
  gramFold (Scalar.ofBits .f32 0x00000000#32)
   [(s (band 0 (by omega) c1), s (band 0 (by omega) c2)),
    (s (band 32 (by omega) c1), s (band 32 (by omega) c2)),
    (s (band 64 (by omega) c1), s (band 64 (by omega) c2)),
    (s (band 96 (by omega) c1), s (band 96 (by omega) c2)),
    (s (band 128 (by omega) c1), s (band 128 (by omega) c2)),
    (s (band 160 (by omega) c1), s (band 160 (by omega) c2)),
    (s (band 192 (by omega) c1), s (band 192 (by omega) c2))]

/-- Row `r` of the atom's 4128 result rows, from its scalar column `s0` and its four parts' flattened rows. -/
def rowFn (s0 : Fin 32 → F .f32) (s1 : Fin 32 → F .f32) (s2 : Fin 96 → F .f32) (s3 : Fin 160 → F .f32) (s4 : Fin 224 → F .f32)
    (r : Fin 4128) : F .f32 :=
  if h0 : r.val < 32 then s0 ⟨r.val, h0⟩
  else if h1 : r.val < 1056 then gram1 s1 ⟨(r.val - 32) / 32, by omega⟩ ⟨(r.val - 32) % 32, by omega⟩
  else if h2 : r.val < 2080 then gram3 s2 ⟨(r.val - 1056) / 32, by omega⟩ ⟨(r.val - 1056) % 32, by omega⟩
  else if h3 : r.val < 3104 then gram5 s3 ⟨(r.val - 2080) / 32, by omega⟩ ⟨(r.val - 2080) % 32, by omega⟩
  else gram7 s4 ⟨(r.val - 3104) / 32, by have := r.isLt; omega⟩ ⟨(r.val - 3104) % 32, by omega⟩

theorem rowFn_scalar (s0 : Fin 32 → F .f32) (s1 : Fin 32 → F .f32) (s2 : Fin 96 → F .f32) (s3 : Fin 160 → F .f32) (s4 : Fin 224 → F .f32)
    (r : Fin 4128) (q : Fin 32) (hr : r.val = q.val) : rowFn s0 s1 s2 s3 s4 r = s0 q := by
  have hq := q.isLt
  unfold rowFn
  rw [dif_pos (by omega)]
  exact congrArg s0 (Fin.ext hr)

theorem rowFn_gram1 (s0 : Fin 32 → F .f32) (s1 : Fin 32 → F .f32) (s2 : Fin 96 → F .f32) (s3 : Fin 160 → F .f32) (s4 : Fin 224 → F .f32)
    (r : Fin 4128) (c1 c2 : Fin 32) (hr : r.val = 32 + (c1.val * 32 + c2.val)) : rowFn s0 s1 s2 s3 s4 r = gram1 s1 c1 c2 := by
  have h1 := c1.isLt; have h2 := c2.isLt
  unfold rowFn
  rw [dif_neg (by omega), dif_pos (by omega)]
  congr 1 <;> exact Fin.ext (by dsimp only; omega)

theorem rowFn_gram3 (s0 : Fin 32 → F .f32) (s1 : Fin 32 → F .f32) (s2 : Fin 96 → F .f32) (s3 : Fin 160 → F .f32) (s4 : Fin 224 → F .f32)
    (r : Fin 4128) (c1 c2 : Fin 32) (hr : r.val = 1056 + (c1.val * 32 + c2.val)) : rowFn s0 s1 s2 s3 s4 r = gram3 s2 c1 c2 := by
  have h1 := c1.isLt; have h2 := c2.isLt
  unfold rowFn
  rw [dif_neg (by omega), dif_neg (by omega), dif_pos (by omega)]
  congr 1 <;> exact Fin.ext (by dsimp only; omega)

theorem rowFn_gram5 (s0 : Fin 32 → F .f32) (s1 : Fin 32 → F .f32) (s2 : Fin 96 → F .f32) (s3 : Fin 160 → F .f32) (s4 : Fin 224 → F .f32)
    (r : Fin 4128) (c1 c2 : Fin 32) (hr : r.val = 2080 + (c1.val * 32 + c2.val)) : rowFn s0 s1 s2 s3 s4 r = gram5 s3 c1 c2 := by
  have h1 := c1.isLt; have h2 := c2.isLt
  unfold rowFn
  rw [dif_neg (by omega), dif_neg (by omega), dif_neg (by omega), dif_pos (by omega)]
  congr 1 <;> exact Fin.ext (by dsimp only; omega)

theorem rowFn_gram7 (s0 : Fin 32 → F .f32) (s1 : Fin 32 → F .f32) (s2 : Fin 96 → F .f32) (s3 : Fin 160 → F .f32) (s4 : Fin 224 → F .f32)
    (r : Fin 4128) (c1 c2 : Fin 32) (hr : r.val = 3104 + (c1.val * 32 + c2.val)) : rowFn s0 s1 s2 s3 s4 r = gram7 s4 c1 c2 := by
  have h1 := c1.isLt; have h2 := c2.isLt
  unfold rowFn
  rw [dif_neg (by omega), dif_neg (by omega), dif_neg (by omega), dif_neg (by omega)]
  congr 1 <;> exact Fin.ext (by dsimp only; omega)

end Cert.Spec

end
-- ==== Proof.BitsBlock.lean ====
/-
  The output block, entry by entry. Each of the body's five stores is read at an index: the first is the scalar block
  itself; each of the other four holds, at row 32 c1 + c2 and column j, atom j's Gram entry (c1, c2) of one part,
  the products over the part's angular components added one by one onto zero. Together: entry (r, j) of the output
  block is row r of atom j's result, computed from column j of the scalar block and row j of each part's block. In
  particular column j of the output depends on the inputs only through their column j (scalar block) and row j
  (parts' blocks).
-/
import proofs.«124210_j19035295055889_2_alg».proof.Proof.BitsBody
import proofs.«124210_j19035295055889_2_alg».proof.Proof.Spec

set_option maxRecDepth 16384

noncomputable section

namespace Cert.Kernel.Block

open Cert.Kernel Cert.Kernel.Gen Cert.Kernel.Body Cert.LibGram Cert.Spec
open Idealize.ShloMosaic Idealize.ShloMosaic.ValueIdx

variable {F : FTy → Type} [FloatOps F]

/-- The first store copies the scalar block. -/
theorem pay1_eq (x : Vec F S32x512 .f32) : k0_pay1 x = x := by
  dsimp only [k0_pay1]
  exact shapeCast_self x _

/-- The first part's store (one angular component): row `32 c1 + c2`, column `j` holds atom `j`'s Gram entry. -/
theorem pay2_apply (x : Vec F S512x32 .f32) (r : Fin 1024) (j : Fin 512) (c1 c2 : Fin 32) (hr : r.val = c1.val * 32 + c2.val) :
    k0_pay2 x (ix2 r j) = gram1 (fun k => x (ix2 j k)) c1 c2 := by
  dsimp only [k0_pay2]
  refine (flatRows_apply _ _ r j c1 c2 hr).trans ?_
  rw [shapeCast_self x]
  exact congrArg (FloatOps.addf _) (term0_apply x _ _ _ _ _ c1 c2 j)

/-- The store of the part with 3 angular components: row `32 c1 + c2`, column `j` holds atom `j`'s Gram entry. -/
theorem pay3_apply (x : Vec F S512x96 .f32) (r : Fin 1024) (j : Fin 512) (c1 c2 : Fin 32) (hr : r.val = c1.val * 32 + c2.val) :
    k0_pay3 x (ix2 r j) = gram3 (fun k => x (ix2 j k)) c1 c2 := by
  dsimp only [k0_pay3]
  refine (flatRows_apply _ _ r j c1 c2 hr).trans ?_
  rw [shapeCast_self x]
  exact congrArg₂ FloatOps.addf (congrArg₂ FloatOps.addf (congrArg (FloatOps.addf _) (term_apply 0 x _ _ _ _ _ _ c1 c2 j (band 0 (by omega) c1) (band 0 (by omega) c2) rfl rfl))
      (term_apply 32 x _ _ _ _ _ _ c1 c2 j (band 32 (by omega) c1) (band 32 (by omega) c2) rfl rfl))
      (term_apply 64 x _ _ _ _ _ _ c1 c2 j (band 64 (by omega) c1) (band 64 (by omega) c2) rfl rfl)

/-- The store of the part with 5 angular components: row `32 c1 + c2`, column `j` holds atom `j`'s Gram entry. -/
theorem pay4_apply (x : Vec F S512x160 .f32) (r : Fin 1024) (j : Fin 512) (c1 c2 : Fin 32) (hr : r.val = c1.val * 32 + c2.val) :
    k0_pay4 x (ix2 r j) = gram5 (fun k => x (ix2 j k)) c1 c2 := by
  dsimp only [k0_pay4]
  refine (flatRows_apply _ _ r j c1 c2 hr).trans ?_
  rw [shapeCast_self x]
  exact congrArg₂ FloatOps.addf (congrArg₂ FloatOps.addf (congrArg₂ FloatOps.addf (congrArg₂ FloatOps.addf (congrArg (FloatOps.addf _) (term_apply 0 x _ _ _ _ _ _ c1 c2 j (band 0 (by omega) c1) (band 0 (by omega) c2) rfl rfl))
      (term_apply 32 x _ _ _ _ _ _ c1 c2 j (band 32 (by omega) c1) (band 32 (by omega) c2) rfl rfl))
      (term_apply 64 x _ _ _ _ _ _ c1 c2 j (band 64 (by omega) c1) (band 64 (by omega) c2) rfl rfl))
      (term_apply 96 x _ _ _ _ _ _ c1 c2 j (band 96 (by omega) c1) (band 96 (by omega) c2) rfl rfl))
      (term_apply 128 x _ _ _ _ _ _ c1 c2 j (band 128 (by omega) c1) (band 128 (by omega) c2) rfl rfl)

/-- The store of the part with 7 angular components: row `32 c1 + c2`, column `j` holds atom `j`'s Gram entry. -/
theorem pay8_apply (x : Vec F S512x224 .f32) (r : Fin 1024) (j : Fin 512) (c1 c2 : Fin 32) (hr : r.val = c1.val * 32 + c2.val) :
    k0_pay8 (k0_pay5 x) (k0_pay6 (F := F)) (k0_pay7 x) (ix2 r j) = gram7 (fun k => x (ix2 j k)) c1 c2 := by
  dsimp only [k0_pay8, k0_pay5, k0_pay6, k0_pay7]
  refine (flatRows_apply _ _ r j c1 c2 hr).trans ?_
  rw [shapeCast_self x]
  exact congrArg₂ FloatOps.addf (congrArg₂ FloatOps.addf (congrArg₂ FloatOps.addf (congrArg₂ FloatOps.addf (congrArg₂ FloatOps.addf (congrArg₂ FloatOps.addf (congrArg (FloatOps.addf _) (term_apply 0 x _ _ _ _ _ _ c1 c2 j (band 0 (by omega) c1) (band 0 (by omega) c2) rfl rfl))
      (term_apply 32 x _ _ _ _ _ _ c1 c2 j (band 32 (by omega) c1) (band 32 (by omega) c2) rfl rfl))
      (term_apply 64 x _ _ _ _ _ _ c1 c2 j (band 64 (by omega) c1) (band 64 (by omega) c2) rfl rfl))
      (term_apply 96 x _ _ _ _ _ _ c1 c2 j (band 96 (by omega) c1) (band 96 (by omega) c2) rfl rfl))
      (term_apply 128 x _ _ _ _ _ _ c1 c2 j (band 128 (by omega) c1) (band 128 (by omega) c2) rfl rfl))
      (term_apply 160 x _ _ _ _ _ _ c1 c2 j (band 160 (by omega) c1) (band 160 (by omega) c2) rfl rfl))
      (term_apply 192 x _ _ _ _ _ _ c1 c2 j (band 192 (by omega) c1) (band 192 (by omega) c2) rfl rfl)

/-- Entry `y` of the output block is row `y 0` of the result of the atom in column `y 1`. -/
theorem outBlock_apply (x0 : Vec F S32x512 .f32) (x1 : Vec F S512x32 .f32) (x2 : Vec F S512x96 .f32) (x3 : Vec F S512x160 .f32)
    (x4 : Vec F S512x224 .f32) (y : S4128x512.Idx) :
    outBlock x0 x1 x2 x3 x4 y
      = rowFn (fun q => x0 (ix2 q (y 1))) (fun k => x1 (ix2 (y 1) k)) (fun k => x2 (ix2 (y 1) k)) (fun k => x3 (ix2 (y 1) k))
          (fun k => x4 (ix2 (y 1) k)) (y 0) := by
  have hz : (![0, 0] : Fin 2 → Nat) = fun _ => 0 := funext fun a => by fin_cases a <;> rfl
  unfold outBlock
  rw [View.ld_unit_zero hz, View.ld_unit_zero hz, View.ld_unit_zero hz, View.ld_unit_zero hz, View.ld_unit_zero hz]
  refine View.canon_apply_of_pieces
    (fun y : S4128x512.Idx => rowFn (fun q => x0 (ix2 q (y 1))) (fun k => x1 (ix2 (y 1) k)) (fun k => x2 (ix2 (y 1) k))
      (fun k => x3 (ix2 (y 1) k)) (fun k => x4 (ix2 (y 1) k)) (y 0)) _ ?_ y (cover _ _ _ _ _ y)
  intro p hp x
  simp only [List.mem_cons, List.mem_singleton, List.not_mem_nil, or_false] at hp
  rcases hp with rfl | rfl | rfl | rfl | rfl
  · obtain ⟨r, j, rfl⟩ : ∃ (r : Fin 1024) (j : Fin 512), x = ix2 r j := ⟨x 0, x 1, eq_ix2 x⟩
    have hcol : (ro4.emb (ix2 r j)) 1 = j := Fin.ext (by rw [Rect.emb_apply]; show 0 + 1 * j.val = j.val; omega)
    have hr := r.isLt
    dsimp only
    rw [hcol]
    exact (pay8_apply x4 r j ⟨r.val / 32, by omega⟩ ⟨r.val % 32, by omega⟩ (by show r.val = r.val / 32 * 32 + r.val % 32; omega)).trans
      (rowFn_gram7 (F := F) _ _ _ _ _ (ro4.emb (ix2 r j) 0) _ _
        (by show 3104 + 1 * r.val = 3104 + (r.val / 32 * 32 + r.val % 32); omega)).symm
  · obtain ⟨r, j, rfl⟩ : ∃ (r : Fin 1024) (j : Fin 512), x = ix2 r j := ⟨x 0, x 1, eq_ix2 x⟩
    have hcol : (ro3.emb (ix2 r j)) 1 = j := Fin.ext (by rw [Rect.emb_apply]; show 0 + 1 * j.val = j.val; omega)
    have hr := r.isLt
    dsimp only
    rw [hcol]
    exact (pay4_apply x3 r j ⟨r.val / 32, by omega⟩ ⟨r.val % 32, by omega⟩ (by show r.val = r.val / 32 * 32 + r.val % 32; omega)).trans
      (rowFn_gram5 (F := F) _ _ _ _ _ (ro3.emb (ix2 r j) 0) _ _
        (by show 2080 + 1 * r.val = 2080 + (r.val / 32 * 32 + r.val % 32); omega)).symm
  · obtain ⟨r, j, rfl⟩ : ∃ (r : Fin 1024) (j : Fin 512), x = ix2 r j := ⟨x 0, x 1, eq_ix2 x⟩
    have hcol : (ro2.emb (ix2 r j)) 1 = j := Fin.ext (by rw [Rect.emb_apply]; show 0 + 1 * j.val = j.val; omega)
    have hr := r.isLt
    dsimp only
    rw [hcol]
    exact (pay3_apply x2 r j ⟨r.val / 32, by omega⟩ ⟨r.val % 32, by omega⟩ (by show r.val = r.val / 32 * 32 + r.val % 32; omega)).trans
      (rowFn_gram3 (F := F) _ _ _ _ _ (ro2.emb (ix2 r j) 0) _ _
        (by show 1056 + 1 * r.val = 1056 + (r.val / 32 * 32 + r.val % 32); omega)).symm
  · obtain ⟨r, j, rfl⟩ : ∃ (r : Fin 1024) (j : Fin 512), x = ix2 r j := ⟨x 0, x 1, eq_ix2 x⟩
    have hcol : (ro1.emb (ix2 r j)) 1 = j := Fin.ext (by rw [Rect.emb_apply]; show 0 + 1 * j.val = j.val; omega)
    have hr := r.isLt
    dsimp only
    rw [hcol]
    exact (pay2_apply x1 r j ⟨r.val / 32, by omega⟩ ⟨r.val % 32, by omega⟩ (by show r.val = r.val / 32 * 32 + r.val % 32; omega)).trans
      (rowFn_gram1 (F := F) _ _ _ _ _ (ro1.emb (ix2 r j) 0) _ _
        (by show 32 + 1 * r.val = 32 + (r.val / 32 * 32 + r.val % 32); omega)).symm
  · obtain ⟨q, j, rfl⟩ : ∃ (q : Fin 32) (j : Fin 512), x = ix2 q j := ⟨x 0, x 1, eq_ix2 x⟩
    have hcol : (ro0.emb (ix2 q j)) 1 = j := Fin.ext (by rw [Rect.emb_apply]; show 0 + 1 * j.val = j.val; omega)
    dsimp only
    rw [hcol, pay1_eq]
    exact (rowFn_scalar (F := F) (fun q => x0 (ix2 q j)) _ _ _ _ (ro0.emb (ix2 q j) 0) q (by show 0 + 1 * q.val = q.val; omega)).symm

end Cert.Kernel.Block

end
-- ==== Proof.BitsPipe.lean ====
/-
  The pipeline of 40 blocks of 512 atoms over 20000 atoms: the last block holds 32 atoms and overhangs the arrays by
  480. A fetch of an overhanging block fills only the part of the staging buffer that lies inside the array and leaves
  the rest at contents nobody names; a write-back writes only the part inside the array. Here: the proof data (after
  the body each input buffer holds its block, the output buffer the body's function of them), what each buffer holds
  when the body starts, and the body obligation — the columns of the output block that lie inside the array depend
  only on the parts of the input blocks inside the arrays, because column j of the output is computed from column j of
  the scalar block and row j of each part's block. Then the run of the whole program and its frame.
-/
import proofs.«124210_j19035295055889_2_alg».proof.Proof.BitsBlock

set_option maxRecDepth 16384

noncomputable section

namespace Cert.Kernel.Pipe

open Cert.Kernel Cert.Kernel.Gen Cert.Kernel.Body Cert.Kernel.Block Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks' parts inside the arrays -/

/-- Block `t` holds `min 512 (20000 - 512 t)` atoms of the array: the scalar window and the output window are cut to
    that many columns, each part's window to that many rows; the other axis of every window is whole. -/
theorem xsizes : ∀ t : Fin grid0.N,
    (win0_0.xsize (grid0.coords t) 0 = 32 ∧ win0_0.xsize (grid0.coords t) 1 = min 512 (20000 - 512 * t.val))
    ∧ (win0_1.xsize (grid0.coords t) 0 = min 512 (20000 - 512 * t.val) ∧ win0_1.xsize (grid0.coords t) 1 = 32)
    ∧ (win0_2.xsize (grid0.coords t) 0 = min 512 (20000 - 512 * t.val) ∧ win0_2.xsize (grid0.coords t) 1 = 96)
    ∧ (win0_3.xsize (grid0.coords t) 0 = min 512 (20000 - 512 * t.val) ∧ win0_3.xsize (grid0.coords t) 1 = 160)
    ∧ (win0_4.xsize (grid0.coords t) 0 = min 512 (20000 - 512 * t.val) ∧ win0_4.xsize (grid0.coords t) 1 = 224)
    ∧ (win0_5.xsize (grid0.coords t) 0 = 4128 ∧ win0_5.xsize (grid0.coords t) 1 = min 512 (20000 - 512 * t.val)) := by
  decide +kernel

/-- The output window is never fetched. -/
theorem fetch0_5 : ∀ t : Fin cfg0.N, (cfg0.win 5).fetch t = false :=
  (by decide +kernel : ∀ t : Fin grid0.N, win0_5.fetch t = false)

/-- A filled buffer read at an index inside the filled part reads the filling. -/
theorem fill_inside {G : Pipeline.Grid} (w : Window sig G) {α : Type} (i : G.Coords) (d : w.block.Idx → α) (g : (w.xblock i).Idx → α)
    (j : w.block.Idx) (hj : ∀ a, (j a).val < w.xsize i a) : w.fill i d g j = g fun a => ⟨(j a).val, hj a⟩ := by
  unfold Window.fill
  rw [dif_pos ((w.moved_iff i j).mpr hj)]

/-! ## The proof data -/

/-- What each input's staging buffer holds after the body: its block inside the array, zero past the array's end. -/
def in0 (c : Dev nD) (t : Fin cfg0.N) : S32x512.Idx → Elt F .f32 :=
  win0_0.fill (grid0.coords t) (fun _ => Scalar.ofBits .f32 0#32) (iblk m c 0 t)
def in1 (c : Dev nD) (t : Fin cfg0.N) : S512x32.Idx → Elt F .f32 :=
  win0_1.fill (grid0.coords t) (fun _ => Scalar.ofBits .f32 0#32) (iblk m c 1 t)
def in2 (c : Dev nD) (t : Fin cfg0.N) : S512x96.Idx → Elt F .f32 :=
  win0_2.fill (grid0.coords t) (fun _ => Scalar.ofBits .f32 0#32) (iblk m c 2 t)
def in3 (c : Dev nD) (t : Fin cfg0.N) : S512x160.Idx → Elt F .f32 :=
  win0_3.fill (grid0.coords t) (fun _ => Scalar.ofBits .f32 0#32) (iblk m c 3 t)
def in4 (c : Dev nD) (t : Fin cfg0.N) : S512x224.Idx → Elt F .f32 :=
  win0_4.fill (grid0.coords t) (fun _ => Scalar.ofBits .f32 0#32) (iblk m c 4 t)

/-- The proof data of the pipeline on core `c`: the arrays as the region finds them; after the body at block `t` each
    input's buffer at its block (zero past the array's end) and the output's at the body's function of those. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => in4 m c t
    | ⟨5, _⟩ => outBlock (in0 m c t) (in1 m c t) (in2 m c t) (in3 m c t) (in4 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = in0 m c t := by dsimp only [dats]
theorem after1 (c : Dev nD) (t : Fin cfg0.N) : (dats m 0 c).after 1 t = in1 m c t := by dsimp only [dats]
theorem after2 (c : Dev nD) (t : Fin cfg0.N) : (dats m 0 c).after 2 t = in2 m c t := by dsimp only [dats]
theorem after3 (c : Dev nD) (t : Fin cfg0.N) : (dats m 0 c).after 3 t = in3 m c t := by dsimp only [dats]
theorem after4 (c : Dev nD) (t : Fin cfg0.N) : (dats m 0 c).after 4 t = in4 m c t := by dsimp only [dats]
theorem after5 (c : Dev nD) (t : Fin cfg0.N) :
    (dats m 0 c).after 5 t = outBlock (in0 m c t) (in1 m c t) (in2 m c t) (in3 m c t) (in4 m c t) := by dsimp only [dats]

/-- Every input is fetched at every block: its buffer holds the block inside the array, anything past its end. -/
theorem before0 (c : Dev nD) (t : Fin cfg0.N) (d) :
    (dats m 0 c).before 0 t d = win0_0.fill (grid0.coords t) d (iblk m c 0 t) := by
  unfold Dat.before; rw [if_pos (Gen.fetch0_0 t)]; unfold Dat.fetched Dat.blockOf iblk; rw [A_eq m c 0]
theorem before1 (c : Dev nD) (t : Fin cfg0.N) (d) :
    (dats m 0 c).before 1 t d = win0_1.fill (grid0.coords t) d (iblk m c 1 t) := by
  unfold Dat.before; rw [if_pos (Gen.fetch0_1 t)]; unfold Dat.fetched Dat.blockOf iblk; rw [A_eq m c 1]
theorem before2 (c : Dev nD) (t : Fin cfg0.N) (d) :
    (dats m 0 c).before 2 t d = win0_2.fill (grid0.coords t) d (iblk m c 2 t) := by
  unfold Dat.before; rw [if_pos (Gen.fetch0_2 t)]; unfold Dat.fetched Dat.blockOf iblk; rw [A_eq m c 2]
theorem before3 (c : Dev nD) (t : Fin cfg0.N) (d) :
    (dats m 0 c).before 3 t d = win0_3.fill (grid0.coords t) d (iblk m c 3 t) := by
  unfold Dat.before; rw [if_pos (Gen.fetch0_3 t)]; unfold Dat.fetched Dat.blockOf iblk; rw [A_eq m c 3]
theorem before4 (c : Dev nD) (t : Fin cfg0.N) (d) :
    (dats m 0 c).before 4 t d = win0_4.fill (grid0.coords t) d (iblk m c 4 t) := by
  unfold Dat.before; rw [if_pos (Gen.fetch0_4 t)]; unfold Dat.fetched Dat.blockOf iblk; rw [A_eq m c 4]

/-- The output's buffer is written back at every block: the body finds it at contents nobody names. -/
theorem before5 (c : Dev nD) (t : Fin cfg0.N) (d) : (dats m 0 c).before 5 t d = d := by
  unfold Dat.before
  rw [if_neg (by rw [fetch0_5 t]; exact Bool.false_ne_true)]
  by_cases ht : t.val = 0
  · rw [if_pos ht]
  · rw [if_neg ht]; dsimp only; rw [if_pos (Gen.flush0_5 _)]

/-! ## The part of the output block inside the array does not see the inputs' tails -/

/-- The columns of the output block inside the array are computed from the input blocks' parts inside the arrays:
    two fillings of the input buffers with the same blocks give output blocks that agree there. -/
theorem outBlock_cut_fill (t : Fin cfg0.N)
    (d0 d0' : S32x512.Idx → Elt F .f32) (g0 : (win0_0.xblock (grid0.coords t)).Idx → Elt F .f32)
    (d1 d1' : S512x32.Idx → Elt F .f32) (g1 : (win0_1.xblock (grid0.coords t)).Idx → Elt F .f32)
    (d2 d2' : S512x96.Idx → Elt F .f32) (g2 : (win0_2.xblock (grid0.coords t)).Idx → Elt F .f32)
    (d3 d3' : S512x160.Idx → Elt F .f32) (g3 : (win0_3.xblock (grid0.coords t)).Idx → Elt F .f32)
    (d4 d4' : S512x224.Idx → Elt F .f32) (g4 : (win0_4.xblock (grid0.coords t)).Idx → Elt F .f32) :
    win0_5.cut (grid0.coords t) (outBlock (win0_0.fill (grid0.coords t) d0 g0) (win0_1.fill (grid0.coords t) d1 g1)
        (win0_2.fill (grid0.coords t) d2 g2) (win0_3.fill (grid0.coords t) d3 g3) (win0_4.fill (grid0.coords t) d4 g4))
      = win0_5.cut (grid0.coords t) (outBlock (win0_0.fill (grid0.coords t) d0' g0) (win0_1.fill (grid0.coords t) d1' g1)
        (win0_2.fill (grid0.coords t) d2' g2) (win0_3.fill (grid0.coords t) d3' g3) (win0_4.fill (grid0.coords t) d4' g4)) := by
  obtain ⟨⟨h00, h01⟩, ⟨h10, h11⟩, ⟨h20, h21⟩, ⟨h30, h31⟩, ⟨h40, h41⟩, ⟨h50, h51⟩⟩ := xsizes t
  funext y
  have hy1 : ((win0_5.xinj (grid0.coords t) y) 1).val < min 512 (20000 - 512 * t.val) := by
    have := (y 1).isLt
    show (y 1).val < _
    exact h51 ▸ this
  show outBlock _ _ _ _ _ (win0_5.xinj (grid0.coords t) y) = outBlock _ _ _ _ _ (win0_5.xinj (grid0.coords t) y)
  rw [outBlock_apply, outBlock_apply]
  congr 1
  · funext q
    exact (fill_inside win0_0 _ d0 g0 _ (Fin.forall_fin_two.mpr ⟨q.isLt.trans_eq h00.symm, hy1.trans_eq h01.symm⟩)).trans
      (fill_inside win0_0 _ d0' g0 _ (Fin.forall_fin_two.mpr ⟨q.isLt.trans_eq h00.symm, hy1.trans_eq h01.symm⟩)).symm
  · funext k
    exact (fill_inside win0_1 _ d1 g1 _ (Fin.forall_fin_two.mpr ⟨hy1.trans_eq h10.symm, k.isLt.trans_eq h11.symm⟩)).trans
      (fill_inside win0_1 _ d1' g1 _ (Fin.forall_fin_two.mpr ⟨hy1.trans_eq h10.symm, k.isLt.trans_eq h11.symm⟩)).symm
  · funext k
    exact (fill_inside win0_2 _ d2 g2 _ (Fin.forall_fin_two.mpr ⟨hy1.trans_eq h20.symm, k.isLt.trans_eq h21.symm⟩)).trans
      (fill_inside win0_2 _ d2' g2 _ (Fin.forall_fin_two.mpr ⟨hy1.trans_eq h20.symm, k.isLt.trans_eq h21.symm⟩)).symm
  · funext k
    exact (fill_inside win0_3 _ d3 g3 _ (Fin.forall_fin_two.mpr ⟨hy1.trans_eq h30.symm, k.isLt.trans_eq h31.symm⟩)).trans
      (fill_inside win0_3 _ d3' g3 _ (Fin.forall_fin_two.mpr ⟨hy1.trans_eq h30.symm, k.isLt.trans_eq h31.symm⟩)).symm
  · funext k
    exact (fill_inside win0_4 _ d4 g4 _ (Fin.forall_fin_two.mpr ⟨hy1.trans_eq h40.symm, k.isLt.trans_eq h41.symm⟩)).trans
      (fill_inside win0_4 _ d4' g4 _ (Fin.forall_fin_two.mpr ⟨hy1.trans_eq h40.symm, k.isLt.trans_eq h41.symm⟩)).symm

/-! ## The body obligation -/

/-- At every block: the inputs' buffers arrive holding their blocks filled out with anything, the output's holding
    anything; the body leaves the inputs' as they were and the output's at its function of them, which inside the array
    is its function of the blocks filled out with zero. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0 m c t d0, before1 m c t d1, before2 m c t d2, before3 m c t d3, before4 m c t d4, before5 m c t d5]
  iapply (sound_kernel (F := F) c Set.univ (grid0.coords t) _ _ _ _ _ _ _ _ _ _ _ _
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t))
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [after0]
    change _ ⊢ owns (c : Thread nD τ) (st0_0 t) fullShare (win0_0.fill (grid0.coords t) d0 (win0_0.cut (grid0.coords t) (in0 m c t)))
    unfold in0; rw [win0_0.cut_fill]; try iexact H0
  isplitl [H1]
  · iexists d1
    rw [after1]
    change _ ⊢ owns (c : Thread nD τ) (st0_1 t) fullShare (win0_1.fill (grid0.coords t) d1 (win0_1.cut (grid0.coords t) (in1 m c t)))
    unfold in1; rw [win0_1.cut_fill]; try iexact H1
  isplitl [H2]
  · iexists d2
    rw [after2]
    change _ ⊢ owns (c : Thread nD τ) (st0_2 t) fullShare (win0_2.fill (grid0.coords t) d2 (win0_2.cut (grid0.coords t) (in2 m c t)))
    unfold in2; rw [win0_2.cut_fill]; try iexact H2
  isplitl [H3]
  · iexists d3
    rw [after3]
    change _ ⊢ owns (c : Thread nD τ) (st0_3 t) fullShare (win0_3.fill (grid0.coords t) d3 (win0_3.cut (grid0.coords t) (in3 m c t)))
    unfold in3; rw [win0_3.cut_fill]; try iexact H3
  isplitl [H4]
  · iexists d4
    rw [after4]
    change _ ⊢ owns (c : Thread nD τ) (st0_4 t) fullShare (win0_4.fill (grid0.coords t) d4 (win0_4.cut (grid0.coords t) (in4 m c t)))
    unfold in4; rw [win0_4.cut_fill]; try iexact H4
  · iexists (outBlock (win0_0.fill (grid0.coords t) d0 (iblk m c 0 t)) (win0_1.fill (grid0.coords t) d1 (iblk m c 1 t))
      (win0_2.fill (grid0.coords t) d2 (iblk m c 2 t)) (win0_3.fill (grid0.coords t) d3 (iblk m c 3 t))
      (win0_4.fill (grid0.coords t) d4 (iblk m c 4 t)))
    rw [after5]
    change _ ⊢ owns (c : Thread nD τ) (st0_5 t) fullShare (win0_5.fill (grid0.coords t) _ (win0_5.cut (grid0.coords t) (outBlock (in0 m c t) (in1 m c t) (in2 m c t) (in3 m c t) (in4 m c t))))
    unfold in0 in1 in2 in3 in4
    rw [win0_5.fill_congr_cut (grid0.coords t) (outBlock_cut_fill t d0 _ _ d1 _ _ d2 _ _ d3 _ _ d4 _ _)]
    try iexact H5

/-! ## The run and the frame -/

set_option backward.isDefEq.respectTransparency.types false in
/-- Every weakly fair execution of the program terminates without a fault; every array of the pipeline ends at what
    the proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The program terminates, faults nowhere and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Pipe

end
-- ==== Proof.IdealBody.lean ====
/-
  The kernel body on one block of 512 atoms. It copies the 32 x 512 block of the reshaped scalar array into rows
  0..31 of the 4128 x 512 output block, and for each of the four parts (1, 3, 5, 7 angular components) stores, in
  rows 32 + 1024 l .. 32 + 1024 l + 1023, the channel-by-channel Gram matrix of every atom of the block over the
  angular components. Here: the five stored rectangles, what the output block holds after the body as a function of
  the five input blocks (the last store first), that the five rectangles tile the block, and the body's triple on
  whole staging buffers.
-/
import proofs.«124210_j19035295055889_2_alg».proof.Proof.Gen.KernelIdeal.Frame
import proofs.«124210_j19035295055889_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each input block whole, the output block in five row bands -/

abbrev ri0 : Rect S32x512 := Rect.unit (s := S32x512) ![0, 0] S32x512.size inb_S32x512_S32x512_0_0
abbrev ri1 : Rect S512x32 := Rect.unit (s := S512x32) ![0, 0] S512x32.size inb_S512x32_S512x32_0_0
abbrev ri2 : Rect S512x96 := Rect.unit (s := S512x96) ![0, 0] S512x96.size inb_S512x96_S512x96_0_0
abbrev ri3 : Rect S512x160 := Rect.unit (s := S512x160) ![0, 0] S512x160.size inb_S512x160_S512x160_0_0
abbrev ri4 : Rect S512x224 := Rect.unit (s := S512x224) ![0, 0] S512x224.size inb_S512x224_S512x224_0_0
abbrev ro0 : Rect S4128x512 := Rect.unit (s := S4128x512) ![0, 0] S32x512.size inb_S4128x512_S32x512_0_0
abbrev ro1 : Rect S4128x512 := Rect.unit (s := S4128x512) ![32, 0] S1024x512.size inb_S4128x512_S1024x512_32_0
abbrev ro2 : Rect S4128x512 := Rect.unit (s := S4128x512) ![1056, 0] S1024x512.size inb_S4128x512_S1024x512_1056_0
abbrev ro3 : Rect S4128x512 := Rect.unit (s := S4128x512) ![2080, 0] S1024x512.size inb_S4128x512_S1024x512_2080_0
abbrev ro4 : Rect S4128x512 := Rect.unit (s := S4128x512) ![3104, 0] S1024x512.size inb_S4128x512_S1024x512_3104_0

/-- What the output block holds after the body, from the five input blocks: its five stores as pieces, the last
    store first. -/
def outBlock (x0 : Vec F S32x512 .f32) (x1 : Vec F S512x32 .f32) (x2 : Vec F S512x96 .f32) (x3 : Vec F S512x160 .f32)
    (x4 : Vec F S512x224 .f32) : Vec F S4128x512 .f32 :=
  View.canon [⟨ro4, k0_pay8 (k0_pay5 (View.ld x4 ri4)) (k0_pay6 (F := F)) (k0_pay7 (View.ld x4 ri4))⟩,
    ⟨ro3, k0_pay4 (View.ld x3 ri3)⟩, ⟨ro2, k0_pay3 (View.ld x2 ri2)⟩, ⟨ro1, k0_pay2 (View.ld x1 ri1)⟩,
    ⟨ro0, k0_pay1 (View.ld x0 ri0)⟩]

/-- The five row bands 0..31, 32..1055, 1056..2079, 2080..3103, 3104..4127, cut into bands of 32 rows, tile the block, so they cover it. -/
theorem cover (p4 p3 p2 p1 : Vec F S1024x512 .f32) (p0 : Vec F S32x512 .f32) (y : S4128x512.Idx) :
    ∃ pc ∈ ([⟨ro4, p4⟩, ⟨ro3, p3⟩, ⟨ro2, p2⟩, ⟨ro1, p1⟩, ⟨ro0, p0⟩] : List (View.Piece (Elt F) S4128x512 .f32)), y ∈ pc.1.set :=
  View.cover_of_tiledBy [⟨ro4, p4⟩, ⟨ro3, p3⟩, ⟨ro2, p2⟩, ⟨ro1, p1⟩, ⟨ro0, p0⟩] ![32, 512] (by sl_kernel_rfl) y

/-! ## The body's triple -/

set_option maxHeartbeats 4000000 in
/-- The body on whole staging buffers, the inputs' at contents `x0 … x4` and the output's at anything, ends with
    the inputs' as they were and the output's at `outBlock` of them. -/
theorem sound_kernel (c : Dev nD) (E : Set ℕ) (i : grid0.Coords)
    (arg1 : Memref sig .tc .vmem S32x512 .f32) (harg1 : arg1.IsWhole) (arg2 : Memref sig .tc .vmem S512x32 .f32) (harg2 : arg2.IsWhole)
    (arg3 : Memref sig .tc .vmem S512x96 .f32) (harg3 : arg3.IsWhole) (arg4 : Memref sig .tc .vmem S512x160 .f32) (harg4 : arg4.IsWhole)
    (arg5 : Memref sig .tc .vmem S512x224 .f32) (harg5 : arg5.IsWhole) (arg6 : Memref sig .tc .vmem S4128x512 .f32) (harg6 : arg6.IsWhole)
    (x0 : Vec F S32x512 .f32) (x1 : Vec F S512x32 .f32) (x2 : Vec F S512x96 .f32) (x3 : Vec F S512x160 .f32) (x4 : Vec F S512x224 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _ _ _ _ _)

end Cert.KernelIdeal.Body

end
-- ==== Proof.IdealBlock.lean ====
/-
  The output block, entry by entry. Each of the body's five stores is read at an index: the first is the scalar block
  itself; each of the other four holds, at row 32 c1 + c2 and column j, atom j's Gram entry (c1, c2) of one part,
  the products over the part's angular components added one by one onto zero. Together: entry (r, j) of the output
  block is row r of atom j's result, computed from column j of the scalar block and row j of each part's block. In
  particular column j of the output depends on the inputs only through their column j (scalar block) and row j
  (parts' blocks).
-/
import proofs.«124210_j19035295055889_2_alg».proof.Proof.IdealBody
import proofs.«124210_j19035295055889_2_alg».proof.Proof.Spec

set_option maxRecDepth 16384

noncomputable section

namespace Cert.KernelIdeal.Block

open Cert.KernelIdeal Cert.KernelIdeal.Gen Cert.KernelIdeal.Body Cert.LibGram Cert.Spec
open Idealize.ShloMosaic Idealize.ShloMosaic.ValueIdx

variable {F : FTy → Type} [FloatOps F]

/-- The first store copies the scalar block. -/
theorem pay1_eq (x : Vec F S32x512 .f32) : k0_pay1 x = x := by
  dsimp only [k0_pay1]
  exact shapeCast_self x _

/-- The first part's store (one angular component): row `32 c1 + c2`, column `j` holds atom `j`'s Gram entry. -/
theorem pay2_apply (x : Vec F S512x32 .f32) (r : Fin 1024) (j : Fin 512) (c1 c2 : Fin 32) (hr : r.val = c1.val * 32 + c2.val) :
    k0_pay2 x (ix2 r j) = gram1 (fun k => x (ix2 j k)) c1 c2 := by
  dsimp only [k0_pay2]
  refine (flatRows_apply _ _ r j c1 c2 hr).trans ?_
  rw [shapeCast_self x]
  exact congrArg (FloatOps.addf _) (term0_apply x _ _ _ _ _ c1 c2 j)

/-- The store of the part with 3 angular components: row `32 c1 + c2`, column `j` holds atom `j`'s Gram entry. -/
theorem pay3_apply (x : Vec F S512x96 .f32) (r : Fin 1024) (j : Fin 512) (c1 c2 : Fin 32) (hr : r.val = c1.val * 32 + c2.val) :
    k0_pay3 x (ix2 r j) = gram3 (fun k => x (ix2 j k)) c1 c2 := by
  dsimp only [k0_pay3]
  refine (flatRows_apply _ _ r j c1 c2 hr).trans ?_
  rw [shapeCast_self x]
  exact congrArg₂ FloatOps.addf (congrArg₂ FloatOps.addf (congrArg (FloatOps.addf _) (term_apply 0 x _ _ _ _ _ _ c1 c2 j (band 0 (by omega) c1) (band 0 (by omega) c2) rfl rfl))
      (term_apply 32 x _ _ _ _ _ _ c1 c2 j (band 32 (by omega) c1) (band 32 (by omega) c2) rfl rfl))
      (term_apply 64 x _ _ _ _ _ _ c1 c2 j (band 64 (by omega) c1) (band 64 (by omega) c2) rfl rfl)

/-- The store of the part with 5 angular components: row `32 c1 + c2`, column `j` holds atom `j`'s Gram entry. -/
theorem pay4_apply (x : Vec F S512x160 .f32) (r : Fin 1024) (j : Fin 512) (c1 c2 : Fin 32) (hr : r.val = c1.val * 32 + c2.val) :
    k0_pay4 x (ix2 r j) = gram5 (fun k => x (ix2 j k)) c1 c2 := by
  dsimp only [k0_pay4]
  refine (flatRows_apply _ _ r j c1 c2 hr).trans ?_
  rw [shapeCast_self x]
  exact congrArg₂ FloatOps.addf (congrArg₂ FloatOps.addf (congrArg₂ FloatOps.addf (congrArg₂ FloatOps.addf (congrArg (FloatOps.addf _) (term_apply 0 x _ _ _ _ _ _ c1 c2 j (band 0 (by omega) c1) (band 0 (by omega) c2) rfl rfl))
      (term_apply 32 x _ _ _ _ _ _ c1 c2 j (band 32 (by omega) c1) (band 32 (by omega) c2) rfl rfl))
      (term_apply 64 x _ _ _ _ _ _ c1 c2 j (band 64 (by omega) c1) (band 64 (by omega) c2) rfl rfl))
      (term_apply 96 x _ _ _ _ _ _ c1 c2 j (band 96 (by omega) c1) (band 96 (by omega) c2) rfl rfl))
      (term_apply 128 x _ _ _ _ _ _ c1 c2 j (band 128 (by omega) c1) (band 128 (by omega) c2) rfl rfl)

/-- The store of the part with 7 angular components: row `32 c1 + c2`, column `j` holds atom `j`'s Gram entry. -/
theorem pay8_apply (x : Vec F S512x224 .f32) (r : Fin 1024) (j : Fin 512) (c1 c2 : Fin 32) (hr : r.val = c1.val * 32 + c2.val) :
    k0_pay8 (k0_pay5 x) (k0_pay6 (F := F)) (k0_pay7 x) (ix2 r j) = gram7 (fun k => x (ix2 j k)) c1 c2 := by
  dsimp only [k0_pay8, k0_pay5, k0_pay6, k0_pay7]
  refine (flatRows_apply _ _ r j c1 c2 hr).trans ?_
  rw [shapeCast_self x]
  exact congrArg₂ FloatOps.addf (congrArg₂ FloatOps.addf (congrArg₂ FloatOps.addf (congrArg₂ FloatOps.addf (congrArg₂ FloatOps.addf (congrArg₂ FloatOps.addf (congrArg (FloatOps.addf _) (term_apply 0 x _ _ _ _ _ _ c1 c2 j (band 0 (by omega) c1) (band 0 (by omega) c2) rfl rfl))
      (term_apply 32 x _ _ _ _ _ _ c1 c2 j (band 32 (by omega) c1) (band 32 (by omega) c2) rfl rfl))
      (term_apply 64 x _ _ _ _ _ _ c1 c2 j (band 64 (by omega) c1) (band 64 (by omega) c2) rfl rfl))
      (term_apply 96 x _ _ _ _ _ _ c1 c2 j (band 96 (by omega) c1) (band 96 (by omega) c2) rfl rfl))
      (term_apply 128 x _ _ _ _ _ _ c1 c2 j (band 128 (by omega) c1) (band 128 (by omega) c2) rfl rfl))
      (term_apply 160 x _ _ _ _ _ _ c1 c2 j (band 160 (by omega) c1) (band 160 (by omega) c2) rfl rfl))
      (term_apply 192 x _ _ _ _ _ _ c1 c2 j (band 192 (by omega) c1) (band 192 (by omega) c2) rfl rfl)

/-- Entry `y` of the output block is row `y 0` of the result of the atom in column `y 1`. -/
theorem outBlock_apply (x0 : Vec F S32x512 .f32) (x1 : Vec F S512x32 .f32) (x2 : Vec F S512x96 .f32) (x3 : Vec F S512x160 .f32)
    (x4 : Vec F S512x224 .f32) (y : S4128x512.Idx) :
    outBlock x0 x1 x2 x3 x4 y
      = rowFn (fun q => x0 (ix2 q (y 1))) (fun k => x1 (ix2 (y 1) k)) (fun k => x2 (ix2 (y 1) k)) (fun k => x3 (ix2 (y 1) k))
          (fun k => x4 (ix2 (y 1) k)) (y 0) := by
  have hz : (![0, 0] : Fin 2 → Nat) = fun _ => 0 := funext fun a => by fin_cases a <;> rfl
  unfold outBlock
  rw [View.ld_unit_zero hz, View.ld_unit_zero hz, View.ld_unit_zero hz, View.ld_unit_zero hz, View.ld_unit_zero hz]
  refine View.canon_apply_of_pieces
    (fun y : S4128x512.Idx => rowFn (fun q => x0 (ix2 q (y 1))) (fun k => x1 (ix2 (y 1) k)) (fun k => x2 (ix2 (y 1) k))
      (fun k => x3 (ix2 (y 1) k)) (fun k => x4 (ix2 (y 1) k)) (y 0)) _ ?_ y (cover _ _ _ _ _ y)
  intro p hp x
  simp only [List.mem_cons, List.mem_singleton, List.not_mem_nil, or_false] at hp
  rcases hp with rfl | rfl | rfl | rfl | rfl
  · obtain ⟨r, j, rfl⟩ : ∃ (r : Fin 1024) (j : Fin 512), x = ix2 r j := ⟨x 0, x 1, eq_ix2 x⟩
    have hcol : (ro4.emb (ix2 r j)) 1 = j := Fin.ext (by rw [Rect.emb_apply]; show 0 + 1 * j.val = j.val; omega)
    have hr := r.isLt
    dsimp only
    rw [hcol]
    exact (pay8_apply x4 r j ⟨r.val / 32, by omega⟩ ⟨r.val % 32, by omega⟩ (by show r.val = r.val / 32 * 32 + r.val % 32; omega)).trans
      (rowFn_gram7 (F := F) _ _ _ _ _ (ro4.emb (ix2 r j) 0) _ _
        (by show 3104 + 1 * r.val = 3104 + (r.val / 32 * 32 + r.val % 32); omega)).symm
  · obtain ⟨r, j, rfl⟩ : ∃ (r : Fin 1024) (j : Fin 512), x = ix2 r j := ⟨x 0, x 1, eq_ix2 x⟩
    have hcol : (ro3.emb (ix2 r j)) 1 = j := Fin.ext (by rw [Rect.emb_apply]; show 0 + 1 * j.val = j.val; omega)
    have hr := r.isLt
    dsimp only
    rw [hcol]
    exact (pay4_apply x3 r j ⟨r.val / 32, by omega⟩ ⟨r.val % 32, by omega⟩ (by show r.val = r.val / 32 * 32 + r.val % 32; omega)).trans
      (rowFn_gram5 (F := F) _ _ _ _ _ (ro3.emb (ix2 r j) 0) _ _
        (by show 2080 + 1 * r.val = 2080 + (r.val / 32 * 32 + r.val % 32); omega)).symm
  · obtain ⟨r, j, rfl⟩ : ∃ (r : Fin 1024) (j : Fin 512), x = ix2 r j := ⟨x 0, x 1, eq_ix2 x⟩
    have hcol : (ro2.emb (ix2 r j)) 1 = j := Fin.ext (by rw [Rect.emb_apply]; show 0 + 1 * j.val = j.val; omega)
    have hr := r.isLt
    dsimp only
    rw [hcol]
    exact (pay3_apply x2 r j ⟨r.val / 32, by omega⟩ ⟨r.val % 32, by omega⟩ (by show r.val = r.val / 32 * 32 + r.val % 32; omega)).trans
      (rowFn_gram3 (F := F) _ _ _ _ _ (ro2.emb (ix2 r j) 0) _ _
        (by show 1056 + 1 * r.val = 1056 + (r.val / 32 * 32 + r.val % 32); omega)).symm
  · obtain ⟨r, j, rfl⟩ : ∃ (r : Fin 1024) (j : Fin 512), x = ix2 r j := ⟨x 0, x 1, eq_ix2 x⟩
    have hcol : (ro1.emb (ix2 r j)) 1 = j := Fin.ext (by rw [Rect.emb_apply]; show 0 + 1 * j.val = j.val; omega)
    have hr := r.isLt
    dsimp only
    rw [hcol]
    exact (pay2_apply x1 r j ⟨r.val / 32, by omega⟩ ⟨r.val % 32, by omega⟩ (by show r.val = r.val / 32 * 32 + r.val % 32; omega)).trans
      (rowFn_gram1 (F := F) _ _ _ _ _ (ro1.emb (ix2 r j) 0) _ _
        (by show 32 + 1 * r.val = 32 + (r.val / 32 * 32 + r.val % 32); omega)).symm
  · obtain ⟨q, j, rfl⟩ : ∃ (q : Fin 32) (j : Fin 512), x = ix2 q j := ⟨x 0, x 1, eq_ix2 x⟩
    have hcol : (ro0.emb (ix2 q j)) 1 = j := Fin.ext (by rw [Rect.emb_apply]; show 0 + 1 * j.val = j.val; omega)
    dsimp only
    rw [hcol, pay1_eq]
    exact (rowFn_scalar (F := F) (fun q => x0 (ix2 q j)) _ _ _ _ (ro0.emb (ix2 q j) 0) q (by show 0 + 1 * q.val = q.val; omega)).symm

end Cert.KernelIdeal.Block

end
-- ==== Proof.IdealPipe.lean ====
/-
  The pipeline of 40 blocks of 512 atoms over 20000 atoms: the last block holds 32 atoms and overhangs the arrays by
  480. A fetch of an overhanging block fills only the part of the staging buffer that lies inside the array and leaves
  the rest at contents nobody names; a write-back writes only the part inside the array. Here: the proof data (after
  the body each input buffer holds its block, the output buffer the body's function of them), what each buffer holds
  when the body starts, and the body obligation — the columns of the output block that lie inside the array depend
  only on the parts of the input blocks inside the arrays, because column j of the output is computed from column j of
  the scalar block and row j of each part's block. Then the run of the whole program and its frame.
-/
import proofs.«124210_j19035295055889_2_alg».proof.Proof.IdealBlock

set_option maxRecDepth 16384

noncomputable section

namespace Cert.KernelIdeal.Pipe

open Cert.KernelIdeal Cert.KernelIdeal.Gen Cert.KernelIdeal.Body Cert.KernelIdeal.Block Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks' parts inside the arrays -/

/-- Block `t` holds `min 512 (20000 - 512 t)` atoms of the array: the scalar window and the output window are cut to
    that many columns, each part's window to that many rows; the other axis of every window is whole. -/
theorem xsizes : ∀ t : Fin grid0.N,
    (win0_0.xsize (grid0.coords t) 0 = 32 ∧ win0_0.xsize (grid0.coords t) 1 = min 512 (20000 - 512 * t.val))
    ∧ (win0_1.xsize (grid0.coords t) 0 = min 512 (20000 - 512 * t.val) ∧ win0_1.xsize (grid0.coords t) 1 = 32)
    ∧ (win0_2.xsize (grid0.coords t) 0 = min 512 (20000 - 512 * t.val) ∧ win0_2.xsize (grid0.coords t) 1 = 96)
    ∧ (win0_3.xsize (grid0.coords t) 0 = min 512 (20000 - 512 * t.val) ∧ win0_3.xsize (grid0.coords t) 1 = 160)
    ∧ (win0_4.xsize (grid0.coords t) 0 = min 512 (20000 - 512 * t.val) ∧ win0_4.xsize (grid0.coords t) 1 = 224)
    ∧ (win0_5.xsize (grid0.coords t) 0 = 4128 ∧ win0_5.xsize (grid0.coords t) 1 = min 512 (20000 - 512 * t.val)) := by
  decide +kernel

/-- The output window is never fetched. -/
theorem fetch0_5 : ∀ t : Fin cfg0.N, (cfg0.win 5).fetch t = false :=
  (by decide +kernel : ∀ t : Fin grid0.N, win0_5.fetch t = false)

/-- A filled buffer read at an index inside the filled part reads the filling. -/
theorem fill_inside {G : Pipeline.Grid} (w : Window sig G) {α : Type} (i : G.Coords) (d : w.block.Idx → α) (g : (w.xblock i).Idx → α)
    (j : w.block.Idx) (hj : ∀ a, (j a).val < w.xsize i a) : w.fill i d g j = g fun a => ⟨(j a).val, hj a⟩ := by
  unfold Window.fill
  rw [dif_pos ((w.moved_iff i j).mpr hj)]

/-! ## The proof data -/

/-- What each input's staging buffer holds after the body: its block inside the array, zero past the array's end. -/
def in0 (c : Dev nD) (t : Fin cfg0.N) : S32x512.Idx → Elt F .f32 :=
  win0_0.fill (grid0.coords t) (fun _ => Scalar.ofBits .f32 0#32) (iblk m c 0 t)
def in1 (c : Dev nD) (t : Fin cfg0.N) : S512x32.Idx → Elt F .f32 :=
  win0_1.fill (grid0.coords t) (fun _ => Scalar.ofBits .f32 0#32) (iblk m c 1 t)
def in2 (c : Dev nD) (t : Fin cfg0.N) : S512x96.Idx → Elt F .f32 :=
  win0_2.fill (grid0.coords t) (fun _ => Scalar.ofBits .f32 0#32) (iblk m c 2 t)
def in3 (c : Dev nD) (t : Fin cfg0.N) : S512x160.Idx → Elt F .f32 :=
  win0_3.fill (grid0.coords t) (fun _ => Scalar.ofBits .f32 0#32) (iblk m c 3 t)
def in4 (c : Dev nD) (t : Fin cfg0.N) : S512x224.Idx → Elt F .f32 :=
  win0_4.fill (grid0.coords t) (fun _ => Scalar.ofBits .f32 0#32) (iblk m c 4 t)

/-- The proof data of the pipeline on core `c`: the arrays as the region finds them; after the body at block `t` each
    input's buffer at its block (zero past the array's end) and the output's at the body's function of those. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => in4 m c t
    | ⟨5, _⟩ => outBlock (in0 m c t) (in1 m c t) (in2 m c t) (in3 m c t) (in4 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = in0 m c t := by dsimp only [dats]
theorem after1 (c : Dev nD) (t : Fin cfg0.N) : (dats m 0 c).after 1 t = in1 m c t := by dsimp only [dats]
theorem after2 (c : Dev nD) (t : Fin cfg0.N) : (dats m 0 c).after 2 t = in2 m c t := by dsimp only [dats]
theorem after3 (c : Dev nD) (t : Fin cfg0.N) : (dats m 0 c).after 3 t = in3 m c t := by dsimp only [dats]
theorem after4 (c : Dev nD) (t : Fin cfg0.N) : (dats m 0 c).after 4 t = in4 m c t := by dsimp only [dats]
theorem after5 (c : Dev nD) (t : Fin cfg0.N) :
    (dats m 0 c).after 5 t = outBlock (in0 m c t) (in1 m c t) (in2 m c t) (in3 m c t) (in4 m c t) := by dsimp only [dats]

/-- Every input is fetched at every block: its buffer holds the block inside the array, anything past its end. -/
theorem before0 (c : Dev nD) (t : Fin cfg0.N) (d) :
    (dats m 0 c).before 0 t d = win0_0.fill (grid0.coords t) d (iblk m c 0 t) := by
  unfold Dat.before; rw [if_pos (Gen.fetch0_0 t)]; unfold Dat.fetched Dat.blockOf iblk; rw [A_eq m c 0]
theorem before1 (c : Dev nD) (t : Fin cfg0.N) (d) :
    (dats m 0 c).before 1 t d = win0_1.fill (grid0.coords t) d (iblk m c 1 t) := by
  unfold Dat.before; rw [if_pos (Gen.fetch0_1 t)]; unfold Dat.fetched Dat.blockOf iblk; rw [A_eq m c 1]
theorem before2 (c : Dev nD) (t : Fin cfg0.N) (d) :
    (dats m 0 c).before 2 t d = win0_2.fill (grid0.coords t) d (iblk m c 2 t) := by
  unfold Dat.before; rw [if_pos (Gen.fetch0_2 t)]; unfold Dat.fetched Dat.blockOf iblk; rw [A_eq m c 2]
theorem before3 (c : Dev nD) (t : Fin cfg0.N) (d) :
    (dats m 0 c).before 3 t d = win0_3.fill (grid0.coords t) d (iblk m c 3 t) := by
  unfold Dat.before; rw [if_pos (Gen.fetch0_3 t)]; unfold Dat.fetched Dat.blockOf iblk; rw [A_eq m c 3]
theorem before4 (c : Dev nD) (t : Fin cfg0.N) (d) :
    (dats m 0 c).before 4 t d = win0_4.fill (grid0.coords t) d (iblk m c 4 t) := by
  unfold Dat.before; rw [if_pos (Gen.fetch0_4 t)]; unfold Dat.fetched Dat.blockOf iblk; rw [A_eq m c 4]

/-- The output's buffer is written back at every block: the body finds it at contents nobody names. -/
theorem before5 (c : Dev nD) (t : Fin cfg0.N) (d) : (dats m 0 c).before 5 t d = d := by
  unfold Dat.before
  rw [if_neg (by rw [fetch0_5 t]; exact Bool.false_ne_true)]
  by_cases ht : t.val = 0
  · rw [if_pos ht]
  · rw [if_neg ht]; dsimp only; rw [if_pos (Gen.flush0_5 _)]

/-! ## The part of the output block inside the array does not see the inputs' tails -/

/-- The columns of the output block inside the array are computed from the input blocks' parts inside the arrays:
    two fillings of the input buffers with the same blocks give output blocks that agree there. -/
theorem outBlock_cut_fill (t : Fin cfg0.N)
    (d0 d0' : S32x512.Idx → Elt F .f32) (g0 : (win0_0.xblock (grid0.coords t)).Idx → Elt F .f32)
    (d1 d1' : S512x32.Idx → Elt F .f32) (g1 : (win0_1.xblock (grid0.coords t)).Idx → Elt F .f32)
    (d2 d2' : S512x96.Idx → Elt F .f32) (g2 : (win0_2.xblock (grid0.coords t)).Idx → Elt F .f32)
    (d3 d3' : S512x160.Idx → Elt F .f32) (g3 : (win0_3.xblock (grid0.coords t)).Idx → Elt F .f32)
    (d4 d4' : S512x224.Idx → Elt F .f32) (g4 : (win0_4.xblock (grid0.coords t)).Idx → Elt F .f32) :
    win0_5.cut (grid0.coords t) (outBlock (win0_0.fill (grid0.coords t) d0 g0) (win0_1.fill (grid0.coords t) d1 g1)
        (win0_2.fill (grid0.coords t) d2 g2) (win0_3.fill (grid0.coords t) d3 g3) (win0_4.fill (grid0.coords t) d4 g4))
      = win0_5.cut (grid0.coords t) (outBlock (win0_0.fill (grid0.coords t) d0' g0) (win0_1.fill (grid0.coords t) d1' g1)
        (win0_2.fill (grid0.coords t) d2' g2) (win0_3.fill (grid0.coords t) d3' g3) (win0_4.fill (grid0.coords t) d4' g4)) := by
  obtain ⟨⟨h00, h01⟩, ⟨h10, h11⟩, ⟨h20, h21⟩, ⟨h30, h31⟩, ⟨h40, h41⟩, ⟨h50, h51⟩⟩ := xsizes t
  funext y
  have hy1 : ((win0_5.xinj (grid0.coords t) y) 1).val < min 512 (20000 - 512 * t.val) := by
    have := (y 1).isLt
    show (y 1).val < _
    exact h51 ▸ this
  show outBlock _ _ _ _ _ (win0_5.xinj (grid0.coords t) y) = outBlock _ _ _ _ _ (win0_5.xinj (grid0.coords t) y)
  rw [outBlock_apply, outBlock_apply]
  congr 1
  · funext q
    exact (fill_inside win0_0 _ d0 g0 _ (Fin.forall_fin_two.mpr ⟨q.isLt.trans_eq h00.symm, hy1.trans_eq h01.symm⟩)).trans
      (fill_inside win0_0 _ d0' g0 _ (Fin.forall_fin_two.mpr ⟨q.isLt.trans_eq h00.symm, hy1.trans_eq h01.symm⟩)).symm
  · funext k
    exact (fill_inside win0_1 _ d1 g1 _ (Fin.forall_fin_two.mpr ⟨hy1.trans_eq h10.symm, k.isLt.trans_eq h11.symm⟩)).trans
      (fill_inside win0_1 _ d1' g1 _ (Fin.forall_fin_two.mpr ⟨hy1.trans_eq h10.symm, k.isLt.trans_eq h11.symm⟩)).symm
  · funext k
    exact (fill_inside win0_2 _ d2 g2 _ (Fin.forall_fin_two.mpr ⟨hy1.trans_eq h20.symm, k.isLt.trans_eq h21.symm⟩)).trans
      (fill_inside win0_2 _ d2' g2 _ (Fin.forall_fin_two.mpr ⟨hy1.trans_eq h20.symm, k.isLt.trans_eq h21.symm⟩)).symm
  · funext k
    exact (fill_inside win0_3 _ d3 g3 _ (Fin.forall_fin_two.mpr ⟨hy1.trans_eq h30.symm, k.isLt.trans_eq h31.symm⟩)).trans
      (fill_inside win0_3 _ d3' g3 _ (Fin.forall_fin_two.mpr ⟨hy1.trans_eq h30.symm, k.isLt.trans_eq h31.symm⟩)).symm
  · funext k
    exact (fill_inside win0_4 _ d4 g4 _ (Fin.forall_fin_two.mpr ⟨hy1.trans_eq h40.symm, k.isLt.trans_eq h41.symm⟩)).trans
      (fill_inside win0_4 _ d4' g4 _ (Fin.forall_fin_two.mpr ⟨hy1.trans_eq h40.symm, k.isLt.trans_eq h41.symm⟩)).symm

/-! ## The body obligation -/

/-- At every block: the inputs' buffers arrive holding their blocks filled out with anything, the output's holding
    anything; the body leaves the inputs' as they were and the output's at its function of them, which inside the array
    is its function of the blocks filled out with zero. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0 m c t d0, before1 m c t d1, before2 m c t d2, before3 m c t d3, before4 m c t d4, before5 m c t d5]
  iapply (sound_kernel (F := F) c Set.univ (grid0.coords t) _ _ _ _ _ _ _ _ _ _ _ _
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t))
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [after0]
    change _ ⊢ owns (c : Thread nD τ) (st0_0 t) fullShare (win0_0.fill (grid0.coords t) d0 (win0_0.cut (grid0.coords t) (in0 m c t)))
    unfold in0; rw [win0_0.cut_fill]; try iexact H0
  isplitl [H1]
  · iexists d1
    rw [after1]
    change _ ⊢ owns (c : Thread nD τ) (st0_1 t) fullShare (win0_1.fill (grid0.coords t) d1 (win0_1.cut (grid0.coords t) (in1 m c t)))
    unfold in1; rw [win0_1.cut_fill]; try iexact H1
  isplitl [H2]
  · iexists d2
    rw [after2]
    change _ ⊢ owns (c : Thread nD τ) (st0_2 t) fullShare (win0_2.fill (grid0.coords t) d2 (win0_2.cut (grid0.coords t) (in2 m c t)))
    unfold in2; rw [win0_2.cut_fill]; try iexact H2
  isplitl [H3]
  · iexists d3
    rw [after3]
    change _ ⊢ owns (c : Thread nD τ) (st0_3 t) fullShare (win0_3.fill (grid0.coords t) d3 (win0_3.cut (grid0.coords t) (in3 m c t)))
    unfold in3; rw [win0_3.cut_fill]; try iexact H3
  isplitl [H4]
  · iexists d4
    rw [after4]
    change _ ⊢ owns (c : Thread nD τ) (st0_4 t) fullShare (win0_4.fill (grid0.coords t) d4 (win0_4.cut (grid0.coords t) (in4 m c t)))
    unfold in4; rw [win0_4.cut_fill]; try iexact H4
  · iexists (outBlock (win0_0.fill (grid0.coords t) d0 (iblk m c 0 t)) (win0_1.fill (grid0.coords t) d1 (iblk m c 1 t))
      (win0_2.fill (grid0.coords t) d2 (iblk m c 2 t)) (win0_3.fill (grid0.coords t) d3 (iblk m c 3 t))
      (win0_4.fill (grid0.coords t) d4 (iblk m c 4 t)))
    rw [after5]
    change _ ⊢ owns (c : Thread nD τ) (st0_5 t) fullShare (win0_5.fill (grid0.coords t) _ (win0_5.cut (grid0.coords t) (outBlock (in0 m c t) (in1 m c t) (in2 m c t) (in3 m c t) (in4 m c t))))
    unfold in0 in1 in2 in3 in4
    rw [win0_5.fill_congr_cut (grid0.coords t) (outBlock_cut_fill t d0 _ _ d1 _ _ d2 _ _ d3 _ _ d4 _ _)]
    try iexact H5

/-! ## The run and the frame -/

set_option backward.isDefEq.respectTransparency.types false in
/-- Every weakly fair execution of the program terminates without a fault; every array of the pipeline ends at what
    the proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The program terminates, faults nowhere and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Pipe

end
-- ==== Proof.SpecArray.lean ====
/-
  The whole result as one function of the five arrays the kernel reads — the scalar array reshaped to 32 x 20000 and
  each part flattened to 20000 x 32 M: entry (r, a) is row r of atom a's result (`rowFn`), from column a of the scalar
  array and row a of each flattened part.
-/
import proofs.«124210_j19035295055889_2_alg».proof.Proof.Spec

noncomputable section

namespace Cert.Spec

open Idealize.ShloMosaic Idealize.ShloMosaic.ValueIdx Cert.LibGram

variable {F : FTy → Type} [FloatOps F]

/-- `rowFn` of equal data at equal rows. -/
theorem rowFn_congr {s0 s0' : Fin 32 → F .f32} {s1 s1' : Fin 32 → F .f32} {s2 s2' : Fin 96 → F .f32} {s3 s3' : Fin 160 → F .f32}
    {s4 s4' : Fin 224 → F .f32} {r r' : Fin 4128} (h0 : ∀ q, s0 q = s0' q) (h1 : ∀ k, s1 k = s1' k) (h2 : ∀ k, s2 k = s2' k)
    (h3 : ∀ k, s3 k = s3' k) (h4 : ∀ k, s4 k = s4' k) (hr : r.val = r'.val) :
    rowFn s0 s1 s2 s3 s4 r = rowFn s0' s1' s2' s3' s4' r' := by
  obtain rfl : r = r' := Fin.ext hr
  rw [funext h0, funext h1, funext h2, funext h3, funext h4]

/-- The result array: entry `(r, a)` is row `r` of atom `a`. -/
def resultOf (a0 : (⟨2, ![32, 20000]⟩ : Shape).Idx → F .f32) (a1 : (⟨2, ![20000, 32]⟩ : Shape).Idx → F .f32)
    (a2 : (⟨2, ![20000, 96]⟩ : Shape).Idx → F .f32) (a3 : (⟨2, ![20000, 160]⟩ : Shape).Idx → F .f32)
    (a4 : (⟨2, ![20000, 224]⟩ : Shape).Idx → F .f32) : (⟨2, ![4128, 20000]⟩ : Shape).Idx → F .f32 :=
  fun i => rowFn (fun q => a0 (ix2 q (i 1))) (fun k => a1 (ix2 (i 1) k)) (fun k => a2 (ix2 (i 1) k)) (fun k => a3 (ix2 (i 1) k))
    (fun k => a4 (ix2 (i 1) k)) (i 0)

end Cert.Spec

end
-- ==== Proof.IdealVal.lean ====
/-
  The idealized kernel's result array. Block t writes back the part inside the array of its output block, and that is
  block t of ONE function of the arrays the region reads: entry (r, a) of the result is row r of atom a's result,
  computed from column a of the reshaped scalar array and row a of each flattened part — atom a = 512 t + j sits in
  column j of block t of the scalar array and of the result, and in row j of block t of each part. The 40 blocks cover
  the 20000 columns (the last one with its 32 columns inside the array), so the result array ends holding that
  function; the arrays the region reads are the host's reshapes of the four arguments.
-/
import proofs.«124210_j19035295055889_2_alg».proof.Proof.IdealPipe
import proofs.«124210_j19035295055889_2_alg».proof.Proof.SpecArray
import Idealize.ShloMosaic.Lib.StableHlo.Run

set_option maxRecDepth 16384

noncomputable section

namespace Cert.KernelIdeal.Val

open Cert.KernelIdeal Cert.KernelIdeal.Gen Cert.KernelIdeal.Body Cert.KernelIdeal.Block Cert.KernelIdeal.Pipe Cert.Spec
open Idealize.ShloMosaic Idealize.ShloMosaic.TcCoe Idealize.ShloMosaic.ValueIdx Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Block `t` is the `t`-th block of columns of the scalar array and of the result, the `t`-th block of rows of each part. -/
theorem idx_facts : ∀ t : Fin cfg0.N,
    (win0_0.index t (0 : Fin 2) = 0 ∧ win0_0.index t (1 : Fin 2) = t.val)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = t.val) :=
  (by decide +kernel : ∀ t : Fin grid0.N, _)

/-- The result as a function of the arrays the region reads. -/
abbrev result (c : Dev nD) : S4128x20000.Idx → Elt F .f32 :=
  resultOf (V m c main_v0) (V m c main_v1) (V m c main_v2) (V m c main_v3) (V m c main_v4)

/-- What block `t` writes back is block `t` of `result`. -/
theorem flushed_eq (c : Dev nD) (t : Fin cfg0.N) :
    (dats m 0 c).flushed 5 t = ((cfg0.win 5).blk t).view.read (Elt F) (result m c) := by
  show (cfg0.win 5).cut (grid0.coords t) ((dats m 0 c).after 5 t) = _
  rw [after5]
  obtain ⟨⟨e00, e01⟩, ⟨e10, e11⟩, ⟨e20, e21⟩, ⟨e30, e31⟩, ⟨e40, e41⟩, ⟨e50, e51⟩⟩ := idx_facts t
  obtain ⟨⟨h00, h01⟩, ⟨h10, h11⟩, ⟨h20, h21⟩, ⟨h30, h31⟩, ⟨h40, h41⟩, ⟨h50, h51⟩⟩ := xsizes t
  funext y
  have hy1 : (y 1).val < min 512 (20000 - 512 * t.val) := Nat.lt_of_lt_of_eq (y 1).isLt h51
  show outBlock (in0 m c t) (in1 m c t) (in2 m c t) (in3 m c t) (in4 m c t) (win0_5.xinj (grid0.coords t) y)
    = resultOf (V m c main_v0) (V m c main_v1) (V m c main_v2) (V m c main_v3) (V m c main_v4) (((cfg0.win 5).blk t).view.emb y)
  rw [outBlock_apply]
  refine rowFn_congr (fun q => ?_) (fun k => ?_) (fun k => ?_) (fun k => ?_) (fun k => ?_) ?_
  · unfold in0
    refine (fill_inside win0_0 _ _ _ _ (Fin.forall_fin_two.mpr ⟨q.isLt.trans_eq h00.symm, hy1.trans_eq h01.symm⟩)).trans ?_
    show V m c main_v0 (((cfg0.win 0).blk t).view.emb _) = V m c main_v0 _
    refine congrArg (V m c main_v0) (funext fun a => Fin.ext ?_)
    match a with
    | ⟨0, _⟩ => show win0_0.index t (0 : Fin 2) * 32 + 1 * q.val = q.val; omega
    | ⟨1, _⟩ => show win0_0.index t (1 : Fin 2) * 512 + 1 * (y 1).val = win0_5.index t (1 : Fin 2) * 512 + 1 * (y 1).val; omega
  · unfold in1
    refine (fill_inside win0_1 _ _ _ _ (Fin.forall_fin_two.mpr ⟨hy1.trans_eq h10.symm, k.isLt.trans_eq h11.symm⟩)).trans ?_
    show V m c main_v1 (((cfg0.win 1).blk t).view.emb _) = V m c main_v1 _
    refine congrArg (V m c main_v1) (funext fun a => Fin.ext ?_)
    match a with
    | ⟨0, _⟩ => show win0_1.index t (0 : Fin 2) * 512 + 1 * (y 1).val = win0_5.index t (1 : Fin 2) * 512 + 1 * (y 1).val; omega
    | ⟨1, _⟩ => show win0_1.index t (1 : Fin 2) * 32 + 1 * k.val = k.val; omega
  · unfold in2
    refine (fill_inside win0_2 _ _ _ _ (Fin.forall_fin_two.mpr ⟨hy1.trans_eq h20.symm, k.isLt.trans_eq h21.symm⟩)).trans ?_
    show V m c main_v2 (((cfg0.win 2).blk t).view.emb _) = V m c main_v2 _
    refine congrArg (V m c main_v2) (funext fun a => Fin.ext ?_)
    match a with
    | ⟨0, _⟩ => show win0_2.index t (0 : Fin 2) * 512 + 1 * (y 1).val = win0_5.index t (1 : Fin 2) * 512 + 1 * (y 1).val; omega
    | ⟨1, _⟩ => show win0_2.index t (1 : Fin 2) * 96 + 1 * k.val = k.val; omega
  · unfold in3
    refine (fill_inside win0_3 _ _ _ _ (Fin.forall_fin_two.mpr ⟨hy1.trans_eq h30.symm, k.isLt.trans_eq h31.symm⟩)).trans ?_
    show V m c main_v3 (((cfg0.win 3).blk t).view.emb _) = V m c main_v3 _
    refine congrArg (V m c main_v3) (funext fun a => Fin.ext ?_)
    match a with
    | ⟨0, _⟩ => show win0_3.index t (0 : Fin 2) * 512 + 1 * (y 1).val = win0_5.index t (1 : Fin 2) * 512 + 1 * (y 1).val; omega
    | ⟨1, _⟩ => show win0_3.index t (1 : Fin 2) * 160 + 1 * k.val = k.val; omega
  · unfold in4
    refine (fill_inside win0_4 _ _ _ _ (Fin.forall_fin_two.mpr ⟨hy1.trans_eq h40.symm, k.isLt.trans_eq h41.symm⟩)).trans ?_
    show V m c main_v4 (((cfg0.win 4).blk t).view.emb _) = V m c main_v4 _
    refine congrArg (V m c main_v4) (funext fun a => Fin.ext ?_)
    match a with
    | ⟨0, _⟩ => show win0_4.index t (0 : Fin 2) * 512 + 1 * (y 1).val = win0_5.index t (1 : Fin 2) * 512 + 1 * (y 1).val; omega
    | ⟨1, _⟩ => show win0_4.index t (1 : Fin 2) * 224 + 1 * k.val = k.val; omega
  · show (y 0).val = win0_5.index t (0 : Fin 2) * 4128 + 1 * (y 0).val
    omega

/-- An index of the result array is in block `t` iff its row is any row and its column is one of the block's columns
    inside the array. -/
theorem mem_blk (t : Fin cfg0.N) (i : S4128x20000.Idx) :
    i ∈ ((cfg0.win 5).blk t).view.set ↔ ∀ a : Fin 2, win0_5.index t a * S4128x512.size a ≤ (i a).val
      ∧ (i a).val < win0_5.index t a * S4128x512.size a + win0_5.xsize (grid0.coords t) a := by
  show i ∈ ((View.whole main_v5).slice (win0_5.rect t)).set ↔ _
  rw [View.set_slice_whole, Rect.mem_set_unit]
  exact Iff.rfl

/-- Column `a` of the result lies in block `a / 512`. -/
theorem cover (i : S4128x20000.Idx) : ∃ t : Fin cfg0.N, (cfg0.win 5).flush t = true ∧ i ∈ ((cfg0.win 5).blk t).view.set := by
  have hi0 : (i 0).val < 4128 := (i 0).isLt
  have hi1 : (i 1).val < 20000 := (i 1).isLt
  have hN : (i 1).val / 512 < cfg0.N := by rw [show cfg0.N = 40 from N_0]; omega
  obtain ⟨-, -, -, -, -, ⟨e50, e51⟩⟩ := idx_facts ⟨(i 1).val / 512, hN⟩
  obtain ⟨-, -, -, -, -, ⟨h50, h51⟩⟩ := xsizes ⟨(i 1).val / 512, hN⟩
  refine ⟨⟨(i 1).val / 512, hN⟩, flush0_5 _, (mem_blk _ i).mpr (Fin.forall_fin_two.mpr ⟨?_, ?_⟩)⟩
  · show win0_5.index ⟨(i 1).val / 512, hN⟩ (0 : Fin 2) * 4128 ≤ (i 0).val
      ∧ (i 0).val < win0_5.index ⟨(i 1).val / 512, hN⟩ (0 : Fin 2) * 4128 + win0_5.xsize (grid0.coords ⟨(i 1).val / 512, hN⟩) (0 : Fin 2)
    rw [e50, h50]; omega
  · show win0_5.index ⟨(i 1).val / 512, hN⟩ (1 : Fin 2) * 512 ≤ (i 1).val
      ∧ (i 1).val < win0_5.index ⟨(i 1).val / 512, hN⟩ (1 : Fin 2) * 512 + win0_5.xsize (grid0.coords ⟨(i 1).val / 512, hN⟩) (1 : Fin 2)
    rw [e51, h51]
    show (i 1).val / 512 * 512 ≤ (i 1).val ∧ (i 1).val < (i 1).val / 512 * 512 + min 512 (20000 - 512 * ((i 1).val / 512))
    omega

/-- The result array after the run. -/
theorem final (c : Dev nD) : (dats m 0 c).arrAt 5 cfg0.N = result m c :=
  (dats m 0 c).arrAt_eq_of_cover 5 (result m c) (fun t _ => flushed_eq m c t) cover

/-! ## The arrays the region reads: the host's reshapes of the arguments -/

theorem V_v0 (c : Dev nD) : (V m c main_v0 : S32x20000.Idx → Elt F .f32)
    = shapeCast S32x20000 (m ((c : Thread nD τ).loc main_arg0)) shapeCasts_S20000x1x32_S32x20000 := by
  dsimp only [Gen.V, Gen.hostOps0]; after_results; rfl
theorem V_v1 (c : Dev nD) : (V m c main_v1 : S20000x32.Idx → Elt F .f32)
    = shapeCast S20000x32 (m ((c : Thread nD τ).loc main_arg0)) shapeCasts_S20000x1x32_S20000x32 := by
  dsimp only [Gen.V, Gen.hostOps0]; after_results; rfl
theorem V_v2 (c : Dev nD) : (V m c main_v2 : S20000x96.Idx → Elt F .f32)
    = shapeCast S20000x96 (m ((c : Thread nD τ).loc main_arg1)) shapeCasts_S20000x3x32_S20000x96 := by
  dsimp only [Gen.V, Gen.hostOps0]; after_results; rfl
theorem V_v3 (c : Dev nD) : (V m c main_v3 : S20000x160.Idx → Elt F .f32)
    = shapeCast S20000x160 (m ((c : Thread nD τ).loc main_arg2)) shapeCasts_S20000x5x32_S20000x160 := by
  dsimp only [Gen.V, Gen.hostOps0]; after_results; rfl
theorem V_v4 (c : Dev nD) : (V m c main_v4 : S20000x224.Idx → Elt F .f32)
    = shapeCast S20000x224 (m ((c : Thread nD τ).loc main_arg3)) shapeCasts_S20000x7x32_S20000x224 := by
  dsimp only [Gen.V, Gen.hostOps0]; after_results; rfl

/-- The result as a function of the four arguments. -/
abbrev resultOfArgs (x0 : S20000x1x32.Idx → Elt F .f32) (x1 : S20000x3x32.Idx → Elt F .f32) (x2 : S20000x5x32.Idx → Elt F .f32)
    (x3 : S20000x7x32.Idx → Elt F .f32) : S4128x20000.Idx → Elt F .f32 :=
  resultOf (shapeCast S32x20000 x0 shapeCasts_S20000x1x32_S32x20000) (shapeCast S20000x32 x0 shapeCasts_S20000x1x32_S20000x32)
    (shapeCast S20000x96 x1 shapeCasts_S20000x3x32_S20000x96) (shapeCast S20000x160 x2 shapeCasts_S20000x5x32_S20000x160)
    (shapeCast S20000x224 x3 shapeCasts_S20000x7x32_S20000x224)

/-! ## The run, read -/

/-- Every weakly fair execution of the idealized kernel terminates without a fault, with the result array at
    `resultOfArgs` of the arguments and the arguments unchanged. -/
theorem run : θ_run defs (onTc (τ := τ) (main (F := F))) ⟨m, fun _ => 0, ρ⟩ fun r => ∀ c : Dev nD,
      r.2.mem ((c : Thread nD τ).loc main_v5)
        = resultOfArgs (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).1 5).trans ((final m c).trans (by unfold result resultOfArgs; rw [V_v0, V_v1, V_v2, V_v3, V_v4])),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Val

end
-- ==== Proof.SpecIdeal.lean ====
/-
  The Gram entries on the extended reals: adding the products one by one onto zero is their sum over the angular
  components (addition of extended reals is associative and zero is neutral; no product is split or cancelled).
-/
import proofs.«124210_j19035295055889_2_alg».proof.Proof.Spec
import Idealize.ShloMosaic.PureOps.Ideal.Laws

noncomputable section

namespace Cert.Spec

open Idealize.ShloMosaic Cert.LibGram

/-- One angular component, on the extended reals: the product. -/
theorem gram1_ideal (s : Fin 32 → Ideal .f32) (c1 c2 : Fin 32) : gram1 (F := Ideal) s c1 c2 = s c1 * s c2 := by
  unfold gram1
  rw [gramFold_ideal]
  simp only [List.map_cons, List.map_nil, List.sum_cons, List.sum_nil, Ideal.ofBits_def, Ideal.ofBits_zero_f32, zero_add, add_zero]

/-- 3 angular components, on the extended reals: the sum over the components of the products. -/
theorem gram3_ideal (s : Fin 96 → Ideal .f32) (c1 c2 : Fin 32) :
    gram3 (F := Ideal) s c1 c2
      = ∑ mi : Fin 3, s ⟨mi.val * 32 + c1.val, by have := mi.isLt; omega⟩ * s ⟨mi.val * 32 + c2.val, by have := mi.isLt; omega⟩ := by
  unfold gram3
  rw [gramFold_ideal, Fin.sum_univ_three]
  simp only [List.map_cons, List.map_nil, List.sum_cons, List.sum_nil, Ideal.ofBits_def, Ideal.ofBits_zero_f32, zero_add, add_zero, add_assoc]
  rfl

/-- 5 angular components, on the extended reals: the sum over the components of the products. -/
theorem gram5_ideal (s : Fin 160 → Ideal .f32) (c1 c2 : Fin 32) :
    gram5 (F := Ideal) s c1 c2
      = ∑ mi : Fin 5, s ⟨mi.val * 32 + c1.val, by have := mi.isLt; omega⟩ * s ⟨mi.val * 32 + c2.val, by have := mi.isLt; omega⟩ := by
  unfold gram5
  rw [gramFold_ideal, Fin.sum_univ_five]
  simp only [List.map_cons, List.map_nil, List.sum_cons, List.sum_nil, Ideal.ofBits_def, Ideal.ofBits_zero_f32, zero_add, add_zero, add_assoc]
  rfl

/-- 7 angular components, on the extended reals: the sum over the components of the products. -/
theorem gram7_ideal (s : Fin 224 → Ideal .f32) (c1 c2 : Fin 32) :
    gram7 (F := Ideal) s c1 c2
      = ∑ mi : Fin 7, s ⟨mi.val * 32 + c1.val, by have := mi.isLt; omega⟩ * s ⟨mi.val * 32 + c2.val, by have := mi.isLt; omega⟩ := by
  unfold gram7
  rw [gramFold_ideal, Fin.sum_univ_seven]
  simp only [List.map_cons, List.map_nil, List.sum_cons, List.sum_nil, Ideal.ofBits_def, Ideal.ofBits_zero_f32, zero_add, add_zero, add_assoc]
  rfl

end Cert.Spec

end
-- ==== Proof.RefValue.lean ====
/-
  The reference, entry by entry, on the extended reals. Its result is five arrays laid one under the other: the
  scalar array (the first argument reshaped to 32 x 20000), then for each part the batched product of the part with
  itself over the angular components — entry (a, c, d) the sum over m of p[a, m, c] p[a, m, d] — transposed to
  (d, c, a) and flattened to 1024 x 20000. Row 32 c1 + c2 of a part's array at column a is therefore the sum over m of
  p[a, m, c2] p[a, m, c1], which is atom a's Gram entry (c1, c2) by commutativity of the product; so the reference's
  result is the same function of the reshaped scalar array and the flattened parts as the kernel's.
-/
import proofs.«124210_j19035295055889_2_alg».proof.Proof.Gen.ReferenceIdeal.Read
import proofs.«124210_j19035295055889_2_alg».proof.Proof.SpecArray
import proofs.«124210_j19035295055889_2_alg».proof.Proof.SpecIdeal

set_option maxRecDepth 16384

noncomputable section

namespace Cert.ReferenceIdeal.RefValue

open Cert.ReferenceIdeal Cert.ReferenceIdeal.Gen Cert.ReferenceIdeal.Read Cert.Spec Cert.LibGram
open Idealize.ShloMosaic Idealize.ShloMosaic.ValueIdx

/-- An `[A, M, C]` array flattened to `[A, M * C]` reads, at `(a, m * C + c)`, the array at `(a, m, c)`. -/
theorem flat_apply {α : Type} {A M C K : ℕ} (x : (⟨3, ![A, M, C]⟩ : Shape).Idx → α)
    (h : (⟨3, ![A, M, C]⟩ : Shape).ShapeCasts ⟨2, ![A, K]⟩) (a : Fin A) (k : Fin K) (mi : Fin M) (c : Fin C)
    (hK : K = M * C) (hk : k.val = mi.val * C + c.val) :
    shapeCast ⟨2, ![A, K]⟩ x h (ix2 a k) = x (ix3 a mi c) :=
  shapeCast_apply x h _ _ (by
    rw [Shape.rowMajor_val_three, Shape.rowMajor_val_two]
    show (a.val * M + mi.val) * C + c.val = a.val * K + k.val
    rw [hk, hK]; ring)

/-- Part 0 (1 angular component): the reference's stage — the batched product over the components, transposed to
    channels x channels x atoms and flattened — holds at row `32 c1 + c2`, column `a` atom `a`'s Gram entry. -/
theorem part0_apply (x : S20000x1x32.Idx → Ideal .f32) (h : S20000x1x32.ShapeCasts ⟨2, ![20000, 32]⟩)
    (r : Fin 1024) (a : Fin 20000) (c1 c2 : Fin 32) (hr : r.val = c1.val * 32 + c2.val) :
    val_main_v3 (F := Ideal) x (ix2 r a) = gram1 (F := Ideal) (fun k => shapeCast ⟨2, ![20000, 32]⟩ x h (ix2 a k)) c1 c2 := by
  have h1 := c1.isLt; have h2 := c2.isLt; have ha := a.isLt
  rw [val_main_v3_apply, val_main_v2_apply, val_main_v1_apply]
  have hl : ∀ k : Fin 1, lidx_main_v1 (idx_main_v2 (idx_main_v3 (ix2 r a))) k = ix3 a k c2 := fun k => funext fun ax => Fin.ext (by
    match ax with
    | ⟨0, _⟩ => show (r.val * 20000 + a.val) % 20000 = a.val; omega
    | ⟨1, _⟩ => rfl
    | ⟨2, _⟩ => show (r.val * 20000 + a.val) / 20000 % 32 = c2.val; omega)
  have hr' : ∀ k : Fin 1, ridx_main_v1 (idx_main_v2 (idx_main_v3 (ix2 r a))) k = ix3 a k c1 := fun k => funext fun ax => Fin.ext (by
    match ax with
    | ⟨0, _⟩ => show (r.val * 20000 + a.val) % 20000 = a.val; omega
    | ⟨1, _⟩ => rfl
    | ⟨2, _⟩ => show (r.val * 20000 + a.val) / 640000 = c1.val; omega)
  rw [gram1_ideal, Fin.sum_univ_one]
  rw [hl, hr']
  rw [flat_apply x h a c1 (0 : Fin 1) c1 (by decide) (by show c1.val = 0 * 32 + c1.val; omega),
    flat_apply x h a c2 (0 : Fin 1) c2 (by decide) (by show c2.val = 0 * 32 + c2.val; omega)]
  exact mul_comm _ _

/-- Part 1 (3 angular components): the reference's stage — the batched product over the components, transposed to
    channels x channels x atoms and flattened — holds at row `32 c1 + c2`, column `a` atom `a`'s Gram entry. -/
theorem part1_apply (x : S20000x3x32.Idx → Ideal .f32) (h : S20000x3x32.ShapeCasts ⟨2, ![20000, 96]⟩)
    (r : Fin 1024) (a : Fin 20000) (c1 c2 : Fin 32) (hr : r.val = c1.val * 32 + c2.val) :
    val_main_v6 (F := Ideal) x (ix2 r a) = gram3 (F := Ideal) (fun k => shapeCast ⟨2, ![20000, 96]⟩ x h (ix2 a k)) c1 c2 := by
  have h1 := c1.isLt; have h2 := c2.isLt; have ha := a.isLt
  rw [val_main_v6_apply, val_main_v5_apply, val_main_v4_apply]
  have hl : ∀ k : Fin 3, lidx_main_v4 (idx_main_v5 (idx_main_v6 (ix2 r a))) k = ix3 a k c2 := fun k => funext fun ax => Fin.ext (by
    match ax with
    | ⟨0, _⟩ => show (r.val * 20000 + a.val) % 20000 = a.val; omega
    | ⟨1, _⟩ => rfl
    | ⟨2, _⟩ => show (r.val * 20000 + a.val) / 20000 % 32 = c2.val; omega)
  have hr' : ∀ k : Fin 3, ridx_main_v4 (idx_main_v5 (idx_main_v6 (ix2 r a))) k = ix3 a k c1 := fun k => funext fun ax => Fin.ext (by
    match ax with
    | ⟨0, _⟩ => show (r.val * 20000 + a.val) % 20000 = a.val; omega
    | ⟨1, _⟩ => rfl
    | ⟨2, _⟩ => show (r.val * 20000 + a.val) / 640000 = c1.val; omega)
  rw [gram3_ideal]
  refine Finset.sum_congr rfl fun k _ => ?_
  rw [hl, hr']
  rw [flat_apply x h a ⟨k.val * 32 + c1.val, by have := k.isLt; omega⟩ k c1 (by decide) rfl,
    flat_apply x h a ⟨k.val * 32 + c2.val, by have := k.isLt; omega⟩ k c2 (by decide) rfl]
  exact mul_comm _ _

/-- Part 2 (5 angular components): the reference's stage — the batched product over the components, transposed to
    channels x channels x atoms and flattened — holds at row `32 c1 + c2`, column `a` atom `a`'s Gram entry. -/
theorem part2_apply (x : S20000x5x32.Idx → Ideal .f32) (h : S20000x5x32.ShapeCasts ⟨2, ![20000, 160]⟩)
    (r : Fin 1024) (a : Fin 20000) (c1 c2 : Fin 32) (hr : r.val = c1.val * 32 + c2.val) :
    val_main_v9 (F := Ideal) x (ix2 r a) = gram5 (F := Ideal) (fun k => shapeCast ⟨2, ![20000, 160]⟩ x h (ix2 a k)) c1 c2 := by
  have h1 := c1.isLt; have h2 := c2.isLt; have ha := a.isLt
  rw [val_main_v9_apply, val_main_v8_apply, val_main_v7_apply]
  have hl : ∀ k : Fin 5, lidx_main_v7 (idx_main_v8 (idx_main_v9 (ix2 r a))) k = ix3 a k c2 := fun k => funext fun ax => Fin.ext (by
    match ax with
    | ⟨0, _⟩ => show (r.val * 20000 + a.val) % 20000 = a.val; omega
    | ⟨1, _⟩ => rfl
    | ⟨2, _⟩ => show (r.val * 20000 + a.val) / 20000 % 32 = c2.val; omega)
  have hr' : ∀ k : Fin 5, ridx_main_v7 (idx_main_v8 (idx_main_v9 (ix2 r a))) k = ix3 a k c1 := fun k => funext fun ax => Fin.ext (by
    match ax with
    | ⟨0, _⟩ => show (r.val * 20000 + a.val) % 20000 = a.val; omega
    | ⟨1, _⟩ => rfl
    | ⟨2, _⟩ => show (r.val * 20000 + a.val) / 640000 = c1.val; omega)
  rw [gram5_ideal]
  refine Finset.sum_congr rfl fun k _ => ?_
  rw [hl, hr']
  rw [flat_apply x h a ⟨k.val * 32 + c1.val, by have := k.isLt; omega⟩ k c1 (by decide) rfl,
    flat_apply x h a ⟨k.val * 32 + c2.val, by have := k.isLt; omega⟩ k c2 (by decide) rfl]
  exact mul_comm _ _

/-- Part 3 (7 angular components): the reference's stage — the batched product over the components, transposed to
    channels x channels x atoms and flattened — holds at row `32 c1 + c2`, column `a` atom `a`'s Gram entry. -/
theorem part3_apply (x : S20000x7x32.Idx → Ideal .f32) (h : S20000x7x32.ShapeCasts ⟨2, ![20000, 224]⟩)
    (r : Fin 1024) (a : Fin 20000) (c1 c2 : Fin 32) (hr : r.val = c1.val * 32 + c2.val) :
    val_main_v12 (F := Ideal) x (ix2 r a) = gram7 (F := Ideal) (fun k => shapeCast ⟨2, ![20000, 224]⟩ x h (ix2 a k)) c1 c2 := by
  have h1 := c1.isLt; have h2 := c2.isLt; have ha := a.isLt
  rw [val_main_v12_apply, val_main_v11_apply, val_main_v10_apply]
  have hl : ∀ k : Fin 7, lidx_main_v10 (idx_main_v11 (idx_main_v12 (ix2 r a))) k = ix3 a k c2 := fun k => funext fun ax => Fin.ext (by
    match ax with
    | ⟨0, _⟩ => show (r.val * 20000 + a.val) % 20000 = a.val; omega
    | ⟨1, _⟩ => rfl
    | ⟨2, _⟩ => show (r.val * 20000 + a.val) / 20000 % 32 = c2.val; omega)
  have hr' : ∀ k : Fin 7, ridx_main_v10 (idx_main_v11 (idx_main_v12 (ix2 r a))) k = ix3 a k c1 := fun k => funext fun ax => Fin.ext (by
    match ax with
    | ⟨0, _⟩ => show (r.val * 20000 + a.val) % 20000 = a.val; omega
    | ⟨1, _⟩ => rfl
    | ⟨2, _⟩ => show (r.val * 20000 + a.val) / 640000 = c1.val; omega)
  rw [gram7_ideal]
  refine Finset.sum_congr rfl fun k _ => ?_
  rw [hl, hr']
  rw [flat_apply x h a ⟨k.val * 32 + c1.val, by have := k.isLt; omega⟩ k c1 (by decide) rfl,
    flat_apply x h a ⟨k.val * 32 + c2.val, by have := k.isLt; omega⟩ k c2 (by decide) rfl]
  exact mul_comm _ _

/-- The reference's result is the kernel's function of the reshaped scalar array and the flattened parts. -/
theorem result_eq (x0 : S20000x1x32.Idx → Ideal .f32) (x1 : S20000x3x32.Idx → Ideal .f32) (x2 : S20000x5x32.Idx → Ideal .f32)
    (x3 : S20000x7x32.Idx → Ideal .f32)
    (h0 : S20000x1x32.ShapeCasts ⟨2, ![32, 20000]⟩) (h1 : S20000x1x32.ShapeCasts ⟨2, ![20000, 32]⟩)
    (h2 : S20000x3x32.ShapeCasts ⟨2, ![20000, 96]⟩) (h3 : S20000x5x32.ShapeCasts ⟨2, ![20000, 160]⟩)
    (h4 : S20000x7x32.ShapeCasts ⟨2, ![20000, 224]⟩) :
    val_main_v13 (F := Ideal) x0 x1 x2 x3
      = resultOf (F := Ideal) (shapeCast ⟨2, ![32, 20000]⟩ x0 h0) (shapeCast ⟨2, ![20000, 32]⟩ x0 h1)
          (shapeCast ⟨2, ![20000, 96]⟩ x1 h2) (shapeCast ⟨2, ![20000, 160]⟩ x2 h3) (shapeCast ⟨2, ![20000, 224]⟩ x3 h4) := by
  funext i
  obtain ⟨r, a, rfl⟩ : ∃ (r : Fin 4128) (a : Fin 20000), i = ix2 r a := ⟨i 0, i 1, eq_ix2 i⟩
  have hr := r.isLt
  unfold val_main_v13 resultOf
  by_cases c0 : r.val < 32
  · refine Eq.trans (concatenate_apply_piece (0 : Fin 2) _ _ (ix2 r a) 0 ?_ S32x20000 (val_main_v0 (F := Ideal) x0) ?_ rfl 0 ?_
      (ix2 ⟨r.val, c0⟩ a) ?_ ?_) ?_
    · simp
    · rfl
    · rfl
    · intro b hb
      match b with
      | ⟨0, _⟩ => exact absurd rfl hb
      | ⟨1, _⟩ => rfl
    · show 0 + r.val = r.val; omega
    exact (rowFn_scalar (F := Ideal) (fun q => shapeCast ⟨2, ![32, 20000]⟩ x0 h0 (ix2 q a)) _ _ _ _ r ⟨r.val, c0⟩ rfl).symm
  by_cases c1 : r.val < 1056
  · have hlt : r.val - 32 < 1024 := by omega
    refine Eq.trans (concatenate_apply_piece (0 : Fin 2) _ _ (ix2 r a) 1 ?_ S1024x20000 (val_main_v3 (F := Ideal) x0) ?_ rfl 32 ?_
      (ix2 ⟨r.val - 32, hlt⟩ a) ?_ ?_) ?_
    · simp
    · rfl
    · rfl
    · intro b hb
      match b with
      | ⟨0, _⟩ => exact absurd rfl hb
      | ⟨1, _⟩ => rfl
    · show 32 + (r.val - 32) = r.val; omega
    refine (part0_apply x0 h1 ⟨r.val - 32, hlt⟩ a ⟨(r.val - 32) / 32, by omega⟩ ⟨(r.val - 32) % 32, by omega⟩
      (by show r.val - 32 = (r.val - 32) / 32 * 32 + (r.val - 32) % 32; omega)).trans ?_
    exact (rowFn_gram1 (F := Ideal) _ _ _ _ _ r _ _
      (by show r.val = 32 + ((r.val - 32) / 32 * 32 + (r.val - 32) % 32); omega)).symm
  by_cases c2 : r.val < 2080
  · have hlt : r.val - 1056 < 1024 := by omega
    refine Eq.trans (concatenate_apply_piece (0 : Fin 2) _ _ (ix2 r a) 2 ?_ S1024x20000 (val_main_v6 (F := Ideal) x1) ?_ rfl 1056 ?_
      (ix2 ⟨r.val - 1056, hlt⟩ a) ?_ ?_) ?_
    · simp
    · rfl
    · rfl
    · intro b hb
      match b with
      | ⟨0, _⟩ => exact absurd rfl hb
      | ⟨1, _⟩ => rfl
    · show 1056 + (r.val - 1056) = r.val; omega
    refine (part1_apply x1 h2 ⟨r.val - 1056, hlt⟩ a ⟨(r.val - 1056) / 32, by omega⟩ ⟨(r.val - 1056) % 32, by omega⟩
      (by show r.val - 1056 = (r.val - 1056) / 32 * 32 + (r.val - 1056) % 32; omega)).trans ?_
    exact (rowFn_gram3 (F := Ideal) _ _ _ _ _ r _ _
      (by show r.val = 1056 + ((r.val - 1056) / 32 * 32 + (r.val - 1056) % 32); omega)).symm
  by_cases c3 : r.val < 3104
  · have hlt : r.val - 2080 < 1024 := by omega
    refine Eq.trans (concatenate_apply_piece (0 : Fin 2) _ _ (ix2 r a) 3 ?_ S1024x20000 (val_main_v9 (F := Ideal) x2) ?_ rfl 2080 ?_
      (ix2 ⟨r.val - 2080, hlt⟩ a) ?_ ?_) ?_
    · simp
    · rfl
    · rfl
    · intro b hb
      match b with
      | ⟨0, _⟩ => exact absurd rfl hb
      | ⟨1, _⟩ => rfl
    · show 2080 + (r.val - 2080) = r.val; omega
    refine (part2_apply x2 h3 ⟨r.val - 2080, hlt⟩ a ⟨(r.val - 2080) / 32, by omega⟩ ⟨(r.val - 2080) % 32, by omega⟩
      (by show r.val - 2080 = (r.val - 2080) / 32 * 32 + (r.val - 2080) % 32; omega)).trans ?_
    exact (rowFn_gram5 (F := Ideal) _ _ _ _ _ r _ _
      (by show r.val = 2080 + ((r.val - 2080) / 32 * 32 + (r.val - 2080) % 32); omega)).symm
  · have hlt : r.val - 3104 < 1024 := by omega
    refine Eq.trans (concatenate_apply_piece (0 : Fin 2) _ _ (ix2 r a) 4 ?_ S1024x20000 (val_main_v12 (F := Ideal) x3) ?_ rfl 3104 ?_
      (ix2 ⟨r.val - 3104, hlt⟩ a) ?_ ?_) ?_
    · simp
    · rfl
    · rfl
    · intro b hb
      match b with
      | ⟨0, _⟩ => exact absurd rfl hb
      | ⟨1, _⟩ => rfl
    · show 3104 + (r.val - 3104) = r.val; omega
    refine (part3_apply x3 h4 ⟨r.val - 3104, hlt⟩ a ⟨(r.val - 3104) / 32, by omega⟩ ⟨(r.val - 3104) % 32, by omega⟩
      (by show r.val - 3104 = (r.val - 3104) / 32 * 32 + (r.val - 3104) % 32; omega)).trans ?_
    exact (rowFn_gram7 (F := Ideal) _ _ _ _ _ r _ _
      (by show r.val = 3104 + ((r.val - 3104) / 32 * 32 + (r.val - 3104) % 32); omega)).symm

end Cert.ReferenceIdeal.RefValue

end
-- ==== Proof.lean ====
/-
  The kernel computes, for each of 20000 atoms, a column of 4128 numbers: the atom's 32 entries of the first argument
  reshaped to 32 x 20000, and for each of the four parts (1, 3, 5, 7 angular components of 32 channels) the 32 x 32
  Gram matrix over the angular components, entry (c1, c2) = sum over m of p[a, m, c1] * p[a, m, c2], stored at row
  32 + 1024 l + 32 c1 + c2. It runs over 40 blocks of 512 atoms — the last block has 32 atoms and overhangs the arrays —
  and builds each Gram matrix on the vector unit by adding one outer product per angular component onto zero.

  The reference computes the same array as the reshape laid above four batched products over the angular components,
  each transposed to channels x channels x atoms and flattened.

  On the extended reals the two agree entry by entry: adding the products one by one onto zero is their sum
  (associativity, zero neutral), and the reference's entry differs from the kernel's only in the order of the two
  factors (commutativity). No distributivity or cancellation is used, so the finiteness of the inputs is not needed.

  The frames: each kernel program's run goes block by block; the part of a block that overhangs an array holds
  contents nobody names, and column j of the output block depends only on column j of the scalar block and row j of
  each part's block, so the columns written back (those inside the array) never see the overhang. The reference is a
  straight line of host operations. The idealization rewrote nothing, so nothing is to be preserved.
-/
import proofs.«124210_j19035295055889_2_alg».proof.Defs
import proofs.«124210_j19035295055889_2_alg».proof.Proof.Gen.Kernel
import proofs.«124210_j19035295055889_2_alg».proof.Proof.Gen.KernelIdeal
import proofs.«124210_j19035295055889_2_alg».proof.Proof.Gen.ReferenceIdeal
import proofs.«124210_j19035295055889_2_alg».proof.Proof.Gen.Pre_finite_inputs
import proofs.«124210_j19035295055889_2_alg».proof.Proof.BitsPipe
import proofs.«124210_j19035295055889_2_alg».proof.Proof.IdealVal
import proofs.«124210_j19035295055889_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments unchanged. -/
theorem frame_k : Cert.frame_Kernel := fun m ρ _ => Cert.Kernel.Pipe.frame (F := Bits) m ρ

/-- So does the kernel read on the extended reals. -/
theorem frame_ki : Cert.frame_KernelIdeal := fun m ρ _ => Cert.KernelIdeal.Pipe.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array and the reference's are the same function of arguments that
    agree: row `r` of atom `a` from column `a` of the reshaped first argument and row `a` of each flattened part. -/
theorem algebraic : Cert.algebraic_KernelIdeal_ReferenceIdeal := by
  intro m ρ m' ρ' _ hagree
  refine ⟨fun c => Cert.KernelIdeal.Val.resultOfArgs (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Val.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2]
  exact Cert.ReferenceIdeal.RefValue.result_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
